-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x16 : Shape := ⟨2, ![131072, 16]⟩
abbrev S64x16 : Shape := ⟨2, ![64, 16]⟩
abbrev S64x17 : Shape := ⟨2, ![64, 17]⟩
abbrev S_ : Shape := ⟨0, ![]⟩

class Facts : Prop where
  bcast_S_S131072x16 : S_.BroadcastsInDim S131072x16 (![] : Fin 0 → Fin S131072x16.rank)
  reducesTo_S131072x16_S_d0_1 : S131072x16.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S64x17 : S_.BroadcastsInDim S64x17 (![] : Fin 0 → Fin S64x17.rank)
  reducesTo_S64x17_S_d0_1 : S64x17.ReducesTo [0, 1] S_

variable [Facts]

def fn_part1 {F : FTy → Type} [FloatOps F] (main_arg2 : FVec F S64x16 .f32) (main_v13 : IVec S_ 1) (main_v16 : IVec S64x17 1) : IVec S_ 1 :=
  let main_c_5 : IVec S_ 1 := constantI S_ 1 1#1
  let main_v17 : IVec S_ 1 := (fun x v => Host.reduce IntOp.andi x v reducesTo_S64x17_S_d0_1 h_S_) main_v16 main_c_5
  let main_v18 : IVec S_ 1 := andi main_v13 main_v17
  let main_cst_6 : FVec F S_ .f32 := constant S_ .f32 0x00000000#32
  let main_v19 : FVec F S64x16 .f32 := broadcastInDim S64x16 ![] bcast_S_S64x16 main_cst_6
  let main_v20 : IVec S64x16 1 := cmpf .une main_arg2 main_v19
  let main_c_7 : IVec S_ 1 := constantI S_ 1 1#1
  let main_v21 : IVec S_ 1 := (fun x v => Host.reduce IntOp.andi x v reducesTo_S64x16_S_d0_1 h_S_) main_v20 main_c_7
  let main_v22 : IVec S_ 1 := andi main_v18 main_v21
  main_v22

def fn {F : FTy → Type} [FloatOps F] (main_arg0 : FVec F S131072x16 .f32) (main_arg1 : FVec F S64x16 .f32) (main_arg2 : FVec F S64x16 .f32) (main_arg3 : FVec F S64x17 .f32) : IVec S_ 1 :=
  let main_v0 : FVec F S131072x16 .f32 := Host.absf main_arg0
  let main_cst : FVec F S_ .f32 := constant S_ .f32 0x7F800000#32
  let main_v1 : FVec F S131072x16 .f32 := broadcastInDim S131072x16 ![] bcast_S_S131072x16 main_cst
  let main_v2 : IVec S131072x16 1 := cmpf .olt main_v0 main_v1
  let main_c : IVec S_ 1 := constantI S_ 1 1#1
  let main_v3 : IVec S_ 1 := (fun x v => Host.reduce IntOp.andi x v reducesTo_S131072x16_S_d0_1 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64x17 .f32 := Host.absf main_arg3
  let main_cst_4 : FVec F S_ .f32 := constant S_ .f32 0x7F800000#32
  let main_v15 : FVec F S64x17 .f32 := broadcastInDim S64x17 ![] bcast_S_S64x17 main_cst_4
  let main_v16 : IVec S64x17 1 := cmpf .olt main_v14 main_v15
  fn_part1 (F := F) main_arg2 main_v13 main_v16
-- ==== Kernel.lean ====
abbrev S131072x16 : Shape := ⟨2, ![131072, 16]⟩
abbrev S64x16 : Shape := ⟨2, ![64, 16]⟩
abbrev S64x17 : Shape := ⟨2, ![64, 17]⟩
abbrev S_ : Shape := ⟨0, ![]⟩
abbrev S64x1 : Shape := ⟨2, ![64, 1]⟩
abbrev S64 : Shape := ⟨1, ![64]⟩
abbrev S1x64 : Shape := ⟨2, ![1, 64]⟩
abbrev S32x192 : Shape := ⟨2, ![32, 192]⟩
abbrev S16x64 : Shape := ⟨2, ![16, 64]⟩
abbrev S1 : Shape := ⟨1, ![1]⟩
abbrev S2 : Shape := ⟨1, ![2]⟩
abbrev S131072 : Shape := ⟨1, ![131072]⟩
abbrev S4096x16 : Shape := ⟨2, ![4096, 16]⟩
abbrev S4096 : Shape := ⟨1, ![4096]⟩
abbrev S4096x32 : Shape := ⟨2, ![4096, 32]⟩
abbrev S4096x192 : Shape := ⟨2, ![4096, 192]⟩
abbrev S4096x64 : Shape := ⟨2, ![4096, 64]⟩

abbrev nBuf : Space → Nat
  | .hbm => 49
  | .vmem => 7
  | .smem => 0
  | _ => 0

abbrev bufTy : (tb : Table) → Fin (tcTables nBuf tb) → BufTy
  | .hbm, ⟨0, _⟩ => ⟨S131072x16, .f32⟩
  | .hbm, ⟨1, _⟩ => ⟨S64x16, .f32⟩
  | .hbm, ⟨2, _⟩ => ⟨S64x16, .f32⟩
  | .hbm, ⟨3, _⟩ => ⟨S64x17, .f32⟩
  | .hbm, ⟨4, _⟩ => ⟨S_, .f32⟩
  | .hbm, ⟨5, _⟩ => ⟨S64x16, .f32⟩
  | .hbm, ⟨6, _⟩ => ⟨S64x16, .f32⟩
  | .hbm, ⟨7, _⟩ => ⟨S64x16, .f32⟩
  | .hbm, ⟨8, _⟩ => ⟨S_, .f32⟩
  | .hbm, ⟨9, _⟩ => ⟨S64x16, .f32⟩
  | .hbm, ⟨10, _⟩ => ⟨S64x16, .f32⟩
  | .hbm, ⟨11, _⟩ => ⟨S64x16, .f32⟩
  | .hbm, ⟨12, _⟩ => ⟨S64x16, .f32⟩
  | .hbm, ⟨13, _⟩ => ⟨S64x1, .f32⟩
  | .hbm, ⟨14, _⟩ => ⟨S64, .f32⟩
  | .hbm, ⟨15, _⟩ => ⟨S1x64, .f32⟩
  | .hbm, ⟨16, _⟩ => ⟨S64x16, .f32⟩
  | .hbm, ⟨17, _⟩ => ⟨S64x16, .f32⟩
  | .hbm, ⟨18, _⟩ => ⟨S_, .f32⟩
  | .hbm, ⟨19, _⟩ => ⟨S64, .f32⟩
  | .hbm, ⟨20, _⟩ => ⟨S1x64, .f32⟩
  | .hbm, ⟨21, _⟩ => ⟨S_, .f32⟩
  | .hbm, ⟨22, _⟩ => ⟨S32x192, .f32⟩
  | .hbm, ⟨23, _⟩ => ⟨S16x64, .f32⟩
  | .hbm, ⟨24, _⟩ => ⟨S16x64, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S32x192, .f32⟩
  | .hbm, ⟨31, _⟩ => ⟨S16x64, .f32⟩
  | .hbm, ⟨32, _⟩ => ⟨S_, .f32⟩
  | .hbm, ⟨33, _⟩ => ⟨S16x64, .f32⟩
  | .hbm, ⟨34, _⟩ => ⟨S16x64, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S32x192, .f32⟩
  | .hbm, ⟨41, _⟩ => ⟨S16x64, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S32x192, .f32⟩
  | .hbm, ⟨48, _⟩ => ⟨S131072, .f32⟩
  | .local _ .vmem, ⟨0, _⟩ => ⟨S4096x16, .f32⟩
  | .local _ .vmem, ⟨1, _⟩ => ⟨S4096x16, .f32⟩
  | .local _ .vmem, ⟨2, _⟩ => ⟨S32x192, .f32⟩
  | .local _ .vmem, ⟨3, _⟩ => ⟨S1x64, .f32⟩
  | .local _ .vmem, ⟨4, _⟩ => ⟨S1x64, .f32⟩
  | .local _ .vmem, ⟨5, _⟩ => ⟨S4096, .f32⟩
  | .local _ .vmem, ⟨6, _⟩ => ⟨S4096, .f32⟩
  | _, _ => ⟨S131072x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x16 : S_.BroadcastsInDim S64x16 (![] : Fin 0 → Fin S64x16.rank)
  slices_S64x17_S64x16_0_0 : S64x17.Slices ![0, 0] S64x16
  slices_S64x17_S64x1_0_16 : S64x17.Slices ![0, 16] S64x1
  shapeCasts_S64x1_S64 : S64x1.ShapeCasts S64
  shapeCasts_S64_S1x64 : S64.ShapeCasts S1x64
  reducesTo_S64x16_S64_d1 : S64x16.ReducesTo [1] S64
  h_S_ : 0 < S_.numel
  bcast_S_S32x192 : S_.BroadcastsInDim S32x192 (![] : Fin 0 → Fin S32x192.rank)
  transposes_S64x16_S16x64_1_0 : S64x16.Transposes [1, 0] S16x64
  bcast_S_S1 : S_.BroadcastsInDim S1 (![] : Fin 0 → Fin S1.rank)
  concatenates_S1_S1_S2_d0 : Shape.Concatenates [S1, S1] S2 0
  bcast_S_S16x64 : S_.BroadcastsInDim S16x64 (![] : Fin 0 → Fin S16x64.rank)
  inb_S4096x16_S4096x16_0_0 : ∀ a, (![0, 0] : Fin 2 → Nat) a + S4096x16.size a ≤ S4096x16.size a
  h_S4096x16 : 0 < S4096x16.numel
  concatenates_S4096x16_S4096x16_S4096x32_d1 : Shape.Concatenates [S4096x16, S4096x16] S4096x32 1
  inb_S32x192_S32x192_0_0 : ∀ a, (![0, 0] : Fin 2 → Nat) a + S32x192.size a ≤ S32x192.size a
  h_S32x192 : 0 < S32x192.numel
  shapeCasts_S32x192_S32x192 : S32x192.ShapeCasts S32x192
  slices_S4096x192_o0_0_S4096x64 : S4096x192.Slices ![0, 0] S4096x64
  slices_S4096x192_o0_64_S4096x64 : S4096x192.Slices ![0, 64] S4096x64
  slices_S4096x192_o0_128_S4096x64 : S4096x192.Slices ![0, 128] S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  inb_S4096_S4096_0 : ∀ a, (![0] : Fin 1 → Nat) a + S4096.size a ≤ S4096.size a
  h_S4096 : 0 < S4096.numel
  scatter_S32x192_S2_S16x64_01_n_01_0_wf : ScatterDims.WF S32x192 S2 S16x64 [0, 1] [] [0, 1] 0
  dot_S4096x32_S32x192_S4096x192_1_0_0_1_n_n_wf : DotDims.WF S4096x32 S32x192 S4096x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S131072x16.size a
  hwx0_0 : ∀ i : grid0.Coords, EltTy.bits .f32 = 32 ∨ (Rect.block (s := S131072x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x192.size a ≤ S32x192.size a
  hwx0_1 : ∀ i : grid0.Coords, EltTy.bits .f32 = 32 ∨ (Rect.block (s := S32x192) S32x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S131072.size a
  hwx0_4 : ∀ i : grid0.Coords, EltTy.bits .f32 = 32 ∨ (Rect.block (s := S131072) S4096.size (cc0_transform_4 i) (hinb0_4 i)).WholeWords (EltTy.packing .f32)

variable [Facts₀]

def scatter_S32x192_S2_S16x64_01_n_01_0 : ScatterDims S32x192 S2 S16x64 where
  updateWindowDims := [0, 1]
  insertedWindowDims := []
  scatterDimsToOperandDims := [0, 1]
  indexVectorDim := 0
  wf := scatter_S32x192_S2_S16x64_01_n_01_0_wf
def dot_S4096x32_S32x192_S4096x192_1_0_0_1_n_n : DotDims S4096x32 S32x192 S4096x192 where
  lhsContracting := [1]
  rhsContracting := [0]
  lhsNonContracting := [0]
  rhsNonContracting := [1]
  lhsBatch := []
  rhsBatch := []
  wf := dot_S4096x32_S32x192_S4096x192_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S32x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x16 : Shape := ⟨2, ![131072, 16]⟩
abbrev S64x16 : Shape := ⟨2, ![64, 16]⟩
abbrev S64x17 : Shape := ⟨2, ![64, 17]⟩
abbrev S131072x64 : Shape := ⟨2, ![131072, 64]⟩
abbrev S64x1 : Shape := ⟨2, ![64, 1]⟩
abbrev S64 : Shape := ⟨1, ![64]⟩
abbrev S1x64 : Shape := ⟨2, ![1, 64]⟩
abbrev S131072x1x16 : Shape := ⟨3, ![131072, 1, 16]⟩
abbrev S1x64x16 : Shape := ⟨3, ![1, 64, 16]⟩
abbrev S131072x64x16 : Shape := ⟨3, ![131072, 64, 16]⟩
abbrev S_ : Shape := ⟨0, ![]⟩
abbrev S131072 : Shape := ⟨1, ![131072]⟩

abbrev nBuf : Space → Nat
  | .hbm => 37
  | .vmem => 0
  | .smem => 0
  | _ => 0

abbrev bufTy : (tb : Table) → Fin (tcTables nBuf tb) → BufTy
  | .hbm, ⟨0, _⟩ => ⟨S131072x16, .f32⟩
  | .hbm, ⟨1, _⟩ => ⟨S64x16, .f32⟩
  | .hbm, ⟨2, _⟩ => ⟨S64x16, .f32⟩
  | .hbm, ⟨3, _⟩ => ⟨S64x17, .f32⟩
  | .hbm, ⟨4, _⟩ => ⟨S64x16, .f32⟩
  | .hbm, ⟨5, _⟩ => ⟨S131072x64, .f32⟩
  | .hbm, ⟨6, _⟩ => ⟨S64x1, .f32⟩
  | .hbm, ⟨7, _⟩ => ⟨S64, .f32⟩
  | .hbm, ⟨8, _⟩ => ⟨S1x64, .f32⟩
  | .hbm, ⟨9, _⟩ => ⟨S131072x64, .f32⟩
  | .hbm, ⟨10, _⟩ => ⟨S131072x64, .f32⟩
  | .hbm, ⟨11, _⟩ => ⟨S131072x1x16, .f32⟩
  | .hbm, ⟨12, _⟩ => ⟨S1x64x16, .f32⟩
  | .hbm, ⟨13, _⟩ => ⟨S131072x64x16, .f32⟩
  | .hbm, ⟨14, _⟩ => ⟨S131072x64x16, .f32⟩
  | .hbm, ⟨15, _⟩ => ⟨S131072x64x16, .f32⟩
  | .hbm, ⟨16, _⟩ => ⟨S131072x64x16, .f32⟩
  | .hbm, ⟨17, _⟩ => ⟨S1x64x16, .f32⟩
  | .hbm, ⟨18, _⟩ => ⟨S1x64x16, .f32⟩
  | .hbm, ⟨19, _⟩ => ⟨S_, .f32⟩
  | .hbm, ⟨20, _⟩ => ⟨S1x64x16, .f32⟩
  | .hbm, ⟨21, _⟩ => ⟨S1x64x16, .f32⟩
  | .hbm, ⟨22, _⟩ => ⟨S131072x64x16, .f32⟩
  | .hbm, ⟨23, _⟩ => ⟨S131072x64x16, .f32⟩
  | .hbm, ⟨24, _⟩ => ⟨S_, .f32⟩
  | .hbm, ⟨25, _⟩ => ⟨S131072x64, .f32⟩
  | .hbm, ⟨26, _⟩ => ⟨S131072x64, .f32⟩
  | .hbm, ⟨27, _⟩ => ⟨S131072x64, .f32⟩
  | .hbm, ⟨28, _⟩ => ⟨S131072x64, .f32⟩
  | .hbm, ⟨29, _⟩ => ⟨S_, .f32⟩
  | .hbm, ⟨30, _⟩ => ⟨S131072, .f32⟩
  | .hbm, ⟨31, _⟩ => ⟨S_, .f32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S131072, .f32⟩
  | .hbm, ⟨36, _⟩ => ⟨S131072, .f32⟩
  | _, _ => ⟨S131072x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  slices_S64x17_S64x16_0_0 : S64x17.Slices ![0, 0] S64x16
  slices_S64x17_S64x1_0_16 : S64x17.Slices ![0, 16] S64x1
  shapeCasts_S64x1_S64 : S64x1.ShapeCasts S64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S131072x16_S131072x1x16_0_2 : S131072x16.BroadcastsInDim S131072x1x16 (![0, 2] : Fin 2 → Fin S131072x1x16.rank)
  bcast_S64x16_S1x64x16_1_2 : S64x16.BroadcastsInDim S1x64x16 (![1, 2] : Fin 2 → Fin S1x64x16.rank)
  bcast_S131072x1x16_S131072x64x16_0_1_2 : S131072x1x16.BroadcastsInDim S131072x64x16 (![0, 1, 2] : Fin 3 → Fin S131072x64x16.rank)
  bcast_S1x64x16_S131072x64x16_0_1_2 : S1x64x16.BroadcastsInDim S131072x64x16 (![0, 1, 2] : Fin 3 → Fin S131072x64x16.rank)
  bcast_S_S1x64x16 : S_.BroadcastsInDim S1x64x16 (![] : Fin 0 → Fin S1x64x16.rank)
  reducesTo_S131072x64x16_S131072x64_d2 : S131072x64x16.ReducesTo [2] S131072x64
  h_S_ : 0 < S_.numel
  reducesTo_S131072x64_S131072_d1 : S131072x64.ReducesTo [1] S131072
  bcast_S_S131072 : S_.BroadcastsInDim S131072 (![] : Fin 0 → Fin S131072.rank)
  dot_S131072x16_S64x16_S131072x64_1_1_0_0_n_n_wf : DotDims.WF S131072x16 S64x16 S131072x64 [1] [1] [0] [0] [] []

variable [Facts₀]

def dot_S131072x16_S64x16_S131072x64_1_1_0_0_n_n : DotDims S131072x16 S64x16 S131072x64 where
  lhsContracting := [1]
  rhsContracting := [1]
  lhsNonContracting := [0]
  rhsNonContracting := [0]
  lhsBatch := []
  rhsBatch := []
  wf := dot_S131072x16_S64x16_S131072x64_1_1_0_0_n_n_wf

class Facts : Prop extends Facts₀ where

variable [Facts]
-- ==== Proof.Spec.lean ====
/-
  The fuzzy-rule layer as one function of its four argument arrays, index by index, on the extended reals.

  For a sample n (a row of x, 16 features) and a rule r (a row of mu, sigma and rho):
    * the rule's output is  z(n, r) = Σ_a x(n, a) · rho(r, a) + rho(r, 16);
    * the rule's firing strength is  w(n, r) = exp (logw(n, r)),  where
        logw(n, r) = -( Σ_a (x(n, a) - mu(r, a))² / (2 · sigma(r, a)²) );
    * the layer's output is  ( Σ_r z(n, r) · w(n, r) ) / ( Σ_r w(n, r) + ε ),
  where 2 and ε are the values of the single-precision patterns 0x40000000 and 0x29E12E13.
  Every operation is the exact one on the extended reals; the quotient is the extended quotient.
-/
import Idealize.ShloMosaic.PureOps.Ideal
import Idealize.ShloMosaic.PureOps.Ideal.Laws
import Idealize.ShloMosaic.Lib.ValueIdx

noncomputable section

namespace Cert.Fuzzy

open Idealize.ShloMosaic Idealize.ShloMosaic.ValueIdx

/-- The shape of x: 131072 samples of 16 features. -/
abbrev SX : Shape := ⟨2, ![131072, 16]⟩
/-- The shape of mu and of sigma: 64 rules of 16 features. -/
abbrev SP : Shape := ⟨2, ![64, 16]⟩
/-- The shape of rho: 64 rules of 16 weights and one bias. -/
abbrev SR : Shape := ⟨2, ![64, 17]⟩
/-- The shape of the result: one number per sample. -/
abbrev SO : Shape := ⟨1, ![131072]⟩

/-- Column a of rho, among its 17 columns. -/
abbrev col (a : Fin 16) : Fin 17 := ⟨a.val, by omega⟩
/-- The bias column of rho. -/
abbrev biasCol : Fin 17 := ⟨16, by decide⟩

/-- The value 2, as the program spells it. -/
abbrev two : EReal := Ideal.ofBits .f32 0x40000000#32
/-- The small constant added to the denominator, as the program spells it. -/
abbrev eps : EReal := Ideal.ofBits .f32 0x29E12E13#32

/-- The logarithm of rule r's firing strength on sample n. -/
def logw (x : SX.Idx → EReal) (mu sg : SP.Idx → EReal) (n : Fin 131072) (r : Fin 64) : EReal :=
  -(∑ a : Fin 16, Ideal.div ((x (ix2 n a) - mu (ix2 r a)) * (x (ix2 n a) - mu (ix2 r a))) (two * (sg (ix2 r a) * sg (ix2 r a))))

/-- Rule r's linear output on sample n. -/
def rule (x : SX.Idx → EReal) (rho : SR.Idx → EReal) (n : Fin 131072) (r : Fin 64) : EReal :=
  (∑ a : Fin 16, x (ix2 n a) * rho (ix2 r (col a))) + rho (ix2 r biasCol)

/-- The layer: the firing-strength-weighted mean of the rules' outputs, sample by sample. -/
def G (x : SX.Idx → EReal) (mu sg : SP.Idx → EReal) (rho : SR.Idx → EReal) : SO.Idx → EReal := fun i =>
  Ideal.div (∑ r : Fin 64, rule x rho (i 0) r * Ideal.exp (logw x mu sg (i 0) r))
    ((∑ r : Fin 64, Ideal.exp (logw x mu sg (i 0) r)) + eps)

/-- An index of a rank-2 shape is determined by its two coordinates' values. -/
theorem ix2_ext {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

end Cert.Fuzzy

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.Payload.lean ====
/-
  What the kernel body stores, read at one row.

  The body loads a block of 4096 samples (v0, [4096, 16]), the fused weight matrix (v3, [32, 192]), and two rows
  (v10 and v15, [1, 64]). It forms the [4096, 32] matrix whose row p is (x_p², x_p) (the squares of the 16 features, then the
  features), multiplies it by the weight matrix into [4096, 192], and reads the product in three column bands of 64:
      logw(p, r) = fused(p, r) + fused(p, 64 + r) - v10(r),   z(p, r) = fused(p, 128 + r) + v15(r).
  The stored value at row p is ( Σ_r z(p, r) · exp (logw(p, r)) ) / ( Σ_r exp (logw(p, r)) + ε ): a function of row p of the
  block alone (and of the weight matrix and the two rows), which is how it is stated here.
-/
import proofs.«128864_j32693291057854_2_alg».proof.Proof.Gen.KernelIdeal.Skeleton
import proofs.«128864_j32693291057854_2_alg».proof.Proof.Spec
import proofs.«128864_j32693291057854_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.Fuzzy.Pay

open Cert.KernelIdeal Cert.KernelIdeal.Gen Idealize.ShloMosaic Idealize.ShloMosaic.ValueIdx Cert.Fuzzy

/-- The row (x², x) of a sample with features xr: first the 16 squares, then the 16 features. -/
def lhsRow (xr : Fin 16 → EReal) (k : Fin 32) : EReal :=
  if h : k.val < 16 then xr ⟨k.val, h⟩ * xr ⟨k.val, h⟩ else xr ⟨k.val - 16, by omega⟩

/-- Entry c of the product of the row (x², x) with the weight matrix. -/
def fusedRow (xr : Fin 16 → EReal) (w : S32x192.Idx → EReal) (c : Fin 192) : EReal :=
  ∑ k : Fin 32, lhsRow xr k * w (ix2 k c)

/-- The logarithm of the firing strength of rule r on the sample, as the body computes it. -/
def logwRow (xr : Fin 16 → EReal) (w : S32x192.Idx → EReal) (m2 : S1x64.Idx → EReal) (r : Fin 64) : EReal :=
  fusedRow xr w ⟨0 + r.val, by omega⟩ + fusedRow xr w ⟨64 + r.val, by omega⟩ - m2 (ix2 (0 : Fin 1) r)

/-- The output of rule r on the sample, as the body computes it. -/
def ruleRow (xr : Fin 16 → EReal) (w : S32x192.Idx → EReal) (rb : S1x64.Idx → EReal) (r : Fin 64) : EReal :=
  fusedRow xr w ⟨128 + r.val, by omega⟩ + rb (ix2 (0 : Fin 1) r)

/-- The value the body stores for the sample. -/
def payRow (xr : Fin 16 → EReal) (w : S32x192.Idx → EReal) (m2 rb : S1x64.Idx → EReal) : EReal :=
  Ideal.div (∑ r : Fin 64, ruleRow xr w rb r * Ideal.exp (logwRow xr w m2 r))
    ((∑ r : Fin 64, Ideal.exp (logwRow xr w m2 r)) + eps)

/-! ## The non-pointwise operations, read at coordinates -/

/-- The concatenation of two [4096, 16] arrays along the columns, at (p, k): the first array for k < 16, the second at k - 16 otherwise. -/
theorem concat_at (a b : FVec Ideal S4096x16 .f32) (p : Fin 4096) (k : Fin 32) :
    concatenate S4096x32 1 [⟨S4096x16, a⟩, ⟨S4096x16, b⟩] concatenates_S4096x16_S4096x16_S4096x32_d1 (ix2 p k)
      = if h : k.val < 16 then a (ix2 p ⟨k.val, h⟩) else b (ix2 p ⟨k.val - 16, by omega⟩) := by
  by_cases h : k.val < 16
  · rw [dif_pos h]
    refine concatenate_pair_apply_left (1 : Fin 2) a b _ (ix2 p k) rfl (ix2 p ⟨k.val, h⟩) fun c => ?_
    match c with
    | ⟨0, _⟩ => rfl
    | ⟨1, _⟩ => rfl
  · rw [dif_neg h]
    refine concatenate_pair_apply_right (1 : Fin 2) a b _ (ix2 p k) rfl rfl (ix2 p ⟨k.val - 16, by omega⟩) (fun c hc => ?_) ?_
    · match c with
      | ⟨0, _⟩ => rfl
      | ⟨1, _⟩ => exact absurd rfl hc
    · show (k.val - 16) + 16 = k.val
      omega

/-- The body's matrix product into the zero splat at (p, c): the sum over the 32 contracted positions. -/
theorem matmul_at (l : FVec Ideal S4096x32 .f32) (w : FVec Ideal S32x192 .f32) (p : Fin 4096) (c : Fin 192) :
    matmul dot_S4096x32_S32x192_S4096x192_1_0_0_1_n_n (some .fp32) l w (constant (F := Ideal) S4096x192 .f32 0x00000000#32) (ix2 p c)
      = ∑ k : Fin 32, l (ix2 p k) * w (ix2 k c) := by
  refine Cert.Lib.PlainDot.matmul_zero_ix2 dot_S4096x32_S32x192_S4096x192_1_0_0_1_n_n rfl rfl ?_ ?_ ?_ ?_ (some .fp32) l w p c
  · intro i q
    unfold DotDims.lhsIdx
    rw [dif_neg (show ¬(0 : Fin S4096x32.rank) ∈ dot_S4096x32_S32x192_S4096x192_1_0_0_1_n_n.lhsBatch by decide),
      dif_pos (show (0 : Fin S4096x32.rank) ∈ dot_S4096x32_S32x192_S4096x192_1_0_0_1_n_n.lhsNonContracting by decide)]
    rfl
  · intro i q
    exact dot_S4096x32_S32x192_S4096x192_1_0_0_1_n_n.lhsIdx_val_of_single rfl i q
  · intro i q
    exact dot_S4096x32_S32x192_S4096x192_1_0_0_1_n_n.rhsIdx_val_of_single rfl i q
  · intro i q
    unfold DotDims.rhsIdx
    rw [dif_neg (show ¬(1 : Fin S32x192.rank) ∈ dot_S4096x32_S32x192_S4096x192_1_0_0_1_n_n.rhsBatch by decide),
      dif_pos (show (1 : Fin S32x192.rank) ∈ dot_S4096x32_S32x192_S4096x192_1_0_0_1_n_n.rhsNonContracting by decide)]
    rfl

/-- A band of 64 columns of a [4096, 192] array starting at column off, at (p, r): the array at (p, off + r). -/
theorem band_at (off : Nat) (hoff : off + 64 ≤ 192) (v : FVec Ideal S4096x192 .f32) (h : S4096x192.Slices ![0, off] S4096x64)
    (p : Fin 4096) (r : Fin 64) :
    extractStridedSlice S4096x64 ![0, off] v h (ix2 p r) = v (ix2 p ⟨off + r.val, by omega⟩) := by
  refine extractStridedSlice_apply ![0, off] v h (ix2 p r) (ix2 p ⟨off + r.val, by omega⟩) fun a => ?_
  match a with
  | ⟨0, _⟩ => show p.val = 0 + p.val; omega
  | ⟨1, _⟩ => rfl

/-- A sum along the 64 columns of a [4096, 64] array from the zero accumulator, at row p. -/
theorem rowsum_at (v : FVec Ideal S4096x64 .f32) (hφ : FKind.Formats .f32)
    (hacc : (0x00000000#32 : BitVec FTy.f32.bits) = FKind.add.neutral .f32 hφ) (p : Fin 4096) :
    multiReduction .add [1] S4096 v 0x00000000#32 reduces_S4096x64_S4096 hφ hacc (ix1 p)
      = ∑ r : Fin 64, v (ix2 p r) := by
  refine (Ideal.multiReduction_add_single v 0x00000000#32 reduces_S4096x64_S4096 hφ hacc (ix1 p)).trans ?_
  refine Finset.sum_congr rfl fun r _ => congrArg v (ix2_ext _ _ _ ?_ ?_)
  · rw [Shape.Reduces.lift_val]; rfl
  · rw [Shape.Reduces.lift_val]; rfl

/-- The exponential of an array, at an index. -/
theorem exp_at {s : Shape} (v : FVec Ideal s .f32) (i : s.Idx) : exp v i = Ideal.exp (v i) := rfl

/-! ## The stored value -/

/-- The body's stored value at row p is the quotient of the two sums over the 64 rules, for the sample in row p of the block. -/
theorem pay_eq (v0 : Vec Ideal S4096x16 .f32) (v3 : Vec Ideal S32x192 .f32) (v10 v15 : Vec Ideal S1x64 .f32) (p : Fin 4096) :
    k0_pay1 (F := Ideal) v0 v3 v10 v15 (ix1 p) = payRow (fun a => v0 (ix2 p a)) v3 v10 v15 := by
  unfold k0_pay1 payRow ruleRow logwRow fusedRow lhsRow
  simp only [divf_apply, addf_apply, broadcast_apply]
  refine congrArg₂ Ideal.div ?_ (congrArg₂ (· + ·) ?_ rfl)
  · refine (rowsum_at _ _ _ p).trans (Finset.sum_congr rfl fun r _ => ?_)
    simp only [addf_apply, subf_apply, mulf_apply, exp_at, band_at 0 (by omega), band_at 64 (by omega),
      band_at 128 (by omega), matmul_at, concat_at, shapeCast_self, broadcastTo_1b_ab_apply]
    all_goals rfl
  · refine (rowsum_at _ _ _ p).trans (Finset.sum_congr rfl fun r _ => ?_)
    simp only [addf_apply, subf_apply, mulf_apply, exp_at, band_at 0 (by omega), band_at 64 (by omega),
      band_at 128 (by omega), matmul_at, concat_at, shapeCast_self, broadcastTo_1b_ab_apply]
    all_goals rfl

end Cert.Fuzzy.Pay

end
-- ==== Proof.KernelValue.lean ====
/-
  The kernel's result array as one function of the arrays its region finds.

  The region runs over a grid of 32 points. Point t reads rows 4096·t … 4096·t + 4095 of x (blocks of [4096, 16]), the whole
  weight matrix ([32, 192]) and two whole rows ([1, 64] each), and writes entries 4096·t … 4096·t + 4095 of the result. The
  value stored for an entry depends on its own row of x only (and on the weight matrix and the two rows), so the result
  array is, entry by entry, that value of the matching row of x.

  Contents.
  * the stored value of an entry of a block, as the per-row value of that block's row;
  * where the blocks sit: the block of x at point t starts at row 4096·t, the three whole-array blocks start at 0, the
    block of the result at point t starts at entry 4096·t (decided over the 32 points);
  * each input block read back as the array it was cut from;
  * what point t writes back is block t of the function; the 32 blocks cover the result; so the result array is the
    function, and the run is restated with it.
-/
import proofs.«128864_j32693291057854_2_alg».proof.Proof.Gen.KernelIdeal.Value
import proofs.«128864_j32693291057854_2_alg».proof.Proof.Payload
import Idealize.ShloMosaic.Lib.Pipeline.Value

noncomputable section

namespace Cert.Fuzzy.KV

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result as a function of x, the weight matrix and the two rows: entry i is the per-row value of row i of x. -/
def GK (x : Cert.Fuzzy.SX.Idx → EReal) (w : S32x192.Idx → EReal) (m2 rb : S1x64.Idx → EReal) : Cert.Fuzzy.SO.Idx → EReal :=
  fun i => Cert.Fuzzy.Pay.payRow (fun a => x (ix2 (i 0) a)) w m2 rb

theorem zero_off1 : (![0] : Fin 1 → Nat) = fun _ => 0 := funext fun a => by fin_cases a; rfl
theorem zero_off2 : (![0, 0] : Fin 2 → Nat) = fun _ => 0 := funext fun a => by fin_cases a <;> rfl

/-- The stored value at an entry j of a block is the per-row value of row j of the block of x. -/
theorem pay_at (x0 : Vec Ideal S4096x16 .f32) (x1 : Vec Ideal S32x192 .f32) (x2 x3 : Vec Ideal S1x64 .f32) (j : S4096.Idx) :
    k0_pay1 (F := Ideal) x0 x1 x2 x3 j = Cert.Fuzzy.Pay.payRow (fun a => x0 (ix2 (j 0) a)) x1 x2 x3 := by
  obtain ⟨p, rfl⟩ : ∃ p : Fin 4096, j = ix1 p := ⟨j 0, eq_ix1 j⟩
  exact Cert.Fuzzy.Pay.pay_eq x0 x1 x2 x3 p

/-- Where the blocks sit, decided over the 32 points: the block of x at point t is block (t, 0); the weight matrix and
    the two rows are always block (0, 0); the block of the result at point t is block t. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = t.val :=
  (by decide +kernel : ∀ t : Fin grid0.N, _)

/-- The block of x at point t, at (r, a), is x at (4096·t + r, a). -/
theorem xblock_apply (c : Dev nD) (t : Fin cfg0.N) (y : S4096x16.Idx) (k : S131072x16.Idx)
    (hk0 : (k 0).val = 4096 * t.val + (y 0).val) (hk1 : (k 1).val = (y 1).val) :
    (iblk m c 0 t : Vec Ideal S4096x16 .f32) y = (V m c main_arg0 : S131072x16.Idx → EReal) k := by
  obtain ⟨e0, e1, -⟩ := block_index t
  unfold iblk
  rw [View.read_apply]
  show V m c main_arg0 (((cfg0.win 0).blk t).view.emb y) = V m c main_arg0 k
  refine congrArg (V m c main_arg0) (funext fun a => Fin.ext ?_)
  match a with
  | ⟨0, _⟩ => show win0_0.index t (0 : Fin 2) * 4096 + 1 * (y 0).val = (k 0).val; omega
  | ⟨1, _⟩ => show win0_0.index t (1 : Fin 2) * 16 + 1 * (y 1).val = (k 1).val; omega

/-- The block of the weight matrix at any point is the whole matrix. -/
theorem wblock_eq (c : Dev nD) (t : Fin cfg0.N) :
    (iblk m c 1 t : Vec Ideal S32x192 .f32) = (V m c main_v32 : S32x192.Idx → EReal) := by
  obtain ⟨-, -, e0, e1, -⟩ := block_index t
  unfold iblk
  funext y
  rw [View.read_apply]
  show V m c main_v32 (((cfg0.win 1).blk t).view.emb y) = V m c main_v32 y
  refine congrArg (V m c main_v32) (funext fun a => Fin.ext ?_)
  match a with
  | ⟨0, _⟩ => show win0_1.index t (0 : Fin 2) * 32 + 1 * (y 0).val = (y 0).val; omega
  | ⟨1, _⟩ => show win0_1.index t (1 : Fin 2) * 192 + 1 * (y 1).val = (y 1).val; omega

/-- The block of the first row at any point is the whole row. -/
theorem m2block_eq (c : Dev nD) (t : Fin cfg0.N) :
    (iblk m c 2 t : Vec Ideal S1x64 .f32) = (V m c main_v13 : S1x64.Idx → EReal) := by
  obtain ⟨-, -, -, -, e0, e1, -⟩ := block_index t
  unfold iblk
  funext y
  rw [View.read_apply]
  show V m c main_v13 (((cfg0.win 2).blk t).view.emb y) = V m c main_v13 y
  refine congrArg (V m c main_v13) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The block of the second row at any point is the whole row. -/
theorem rbblock_eq (c : Dev nD) (t : Fin cfg0.N) :
    (iblk m c 3 t : Vec Ideal S1x64 .f32) = (V m c main_v9 : S1x64.Idx → EReal) := by
  obtain ⟨-, -, -, -, -, -, e0, e1, -⟩ := block_index t
  unfold iblk
  funext y
  rw [View.read_apply]
  show V m c main_v9 (((cfg0.win 3).blk t).view.emb y) = V m c main_v9 y
  refine congrArg (V m c main_v9) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- WHAT POINT t WRITES BACK is block t of the function of the arrays as the region finds them. -/
theorem flushed_eq (c : Dev nD) (t : Fin cfg0.N) :
    (dats m 0 c).flushed 4 t = ((cfg0.win 4).blk t).view.read (Elt Ideal)
      (GK (V m c main_arg0) (V m c main_v32) (V m c main_v13) (V m c main_v9)) := by
  show (cfg0.win 4).cut (grid0.coords t) ((dats m 0 c).after 4 t) = _
  rw [after0_4]
  unfold out0_4
  rw [View.canon_unit_zero zero_off1]
  simp only [View.ld_unit_zero (S := S4096x16) zero_off2, View.ld_unit_zero (S := S32x192) zero_off2,
    View.ld_unit_zero (S := S1x64) zero_off2]
  obtain ⟨-, -, -, -, -, -, -, -, e4⟩ := block_index t
  funext j
  show k0_pay1 (F := Ideal) (iblk m c 0 t) (iblk m c 1 t) (iblk m c 2 t) (iblk m c 3 t) j
    = GK (V m c main_arg0) (V m c main_v32) (V m c main_v13) (V m c main_v9) (((cfg0.win 4).blk t).view.emb j)
  refine (pay_at (iblk m c 0 t) (iblk m c 1 t) (iblk m c 2 t) (iblk m c 3 t) j).trans ?_
  rw [wblock_eq m c t, m2block_eq m c t, rbblock_eq m c t]
  unfold GK
  refine congrArg (fun xr => Cert.Fuzzy.Pay.payRow xr (V m c main_v32) (V m c main_v13) (V m c main_v9)) (funext fun a => ?_)
  refine xblock_apply m c t (ix2 (j 0) a) _ ?_ rfl
  show win0_4.index t (0 : Fin 1) * 4096 + 1 * (j 0).val = 4096 * t.val + (j 0).val
  omega

/-- An entry of the result is in point t's block iff it lies in the block's range. -/
theorem mem_blk (t : Fin cfg0.N) (i : S131072.Idx) :
    i ∈ ((cfg0.win 4).blk t).view.set ↔ ∀ a : Fin 1, win0_4.index t a * S4096.size a ≤ (i a).val ∧ (i a).val < win0_4.index t a * S4096.size a + S4096.size a := by
  show i ∈ ((View.whole main_v33).slice (win0_4.rect t)).set ↔ _
  rw [View.set_slice_whole, Rect.mem_set_unit]
  exact Iff.rfl

/-- Every entry of the result is in some point's block: entry n is in the block of point n / 4096. -/
theorem cover (i : S131072.Idx) :
    ∃ t : Fin cfg0.N, (cfg0.win 4).flush t = true ∧ i ∈ ((cfg0.win 4).blk t).view.set := by
  have hN : cfg0.N = 32 := N_0
  have hi : (i 0).val < 131072 := (i 0).isLt
  obtain ⟨t, ht⟩ : ∃ t : Fin cfg0.N, t.val = (i 0).val / 4096 := ⟨⟨(i 0).val / 4096, by omega⟩, rfl⟩
  obtain ⟨-, -, -, -, -, -, -, -, e4⟩ := block_index t
  refine ⟨t, flush0_4 t, ?_⟩
  rw [mem_blk]
  intro a
  match a with
  | ⟨0, _⟩ => show win0_4.index t (0 : Fin 1) * 4096 ≤ (i 0).val ∧ (i 0).val < win0_4.index t (0 : Fin 1) * 4096 + 4096; omega

/-- THE ARRAY after the run is the function of the arrays as the region finds them. -/
theorem final (c : Dev nD) :
    (dats m 0 c).arrAt 4 cfg0.N = GK (V m c main_arg0) (V m c main_v32) (V m c main_v13) (V m c main_v9) :=
  (dats m 0 c).arrAt_eq_of_cover 4 (GK (V m c main_arg0) (V m c main_v32) (V m c main_v13) (V m c main_v9))
    (fun t _ => flushed_eq m c t) cover

/-- The run, read: the result array at the function of the arrays the region finds, the arguments unchanged. -/
theorem run : θ_run defs (onTc (τ := τ) (main (F := Ideal))) ⟨m, fun _ => 0, ρ⟩ fun r => ∀ c : Dev nD,
      r.2.mem ((c : Thread nD τ).loc main_v33) = GK (V m c main_arg0) (V m c main_v32) (V m c main_v13) (V m c main_v9)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Fuzzy.KV

end
-- ==== Proof.LibScatterSet.lean ====
/-
  The overwrite scatter read at an index.

  `Host.scatter d f x idx upd` is a left fold over the update indices in row-major order; each update index `j`
  replaces the element at its result index `d.resultIdx? j idx` (when there is one) by `f` of the old element and the
  update's. For the overwrite body `f = fun _ b => b` the fold read at a result index `i` is

  * the operand's element `x i` when no update index lands at `i` (`scatter_set_miss`), and
  * the update's element `upd j0` when `j0` is the one update index that lands at `i` (`scatter_set_hit`).

  The second part specialises this to a `16 × 64` window written into a `32 × 192` operand at a start index
  `(r0, c0)` read off a two-element index vector: the window's result indices are `(r0 + a, c0 + b)`
  (`resultIdx_window`), so the scatter is the update inside the window and the operand outside it
  (`scatter_window_apply`).
-/
import Idealize.ShloMosaic.PureOps
import Idealize.ShloMosaic.Lib.ValueIdx

namespace Cert.LibScatterSet

open Idealize.ShloMosaic Idealize.ShloMosaic.ValueIdx

/-! ## Part 1: the fold of an overwrite scatter at an index, for any shapes and dimension numbers -/

section General
variable {α : Type} {s si u : Shape} {w : Nat}

/-- One step of the overwrite scatter's fold: update index number `n` (in row-major order) replaces the element at its
    result index, when it has one, by the update's element. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The overwrite scatter is the left fold of `step` over all update index numbers, from the operand. -/
theorem scatter_eq_foldl (d : ScatterDims s si u) (x : s.Idx → α) (idx : IVec si w) (upd : u.Idx → α) :
    Host.scatter d (fun _ b => b) x idx upd = (List.finRange u.numel).foldl (step d idx upd) x := rfl

/-- A step whose update index does not land at `i` leaves the element at `i` as it was. -/
theorem step_miss (d : ScatterDims s si u) (idx : IVec si w) (upd : u.Idx → α) (r : s.Idx → α) (n : Fin u.numel)
    (i : s.Idx) (h : d.resultIdx? (u.rowMajor.symm n) idx ≠ some i) : step d idx upd r n i = r i := by
  unfold step
  cases hres : d.resultIdx? (u.rowMajor.symm n) idx with
  | none => rfl
  | some i1 =>
    have hne : i ≠ i1 := fun e => h (by rw [hres, e])
    exact if_neg hne

/-- A step whose update index lands at `i` puts the update's element there. -/
theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  exact if_pos rfl

/-- Folding over update index numbers none of which lands at `i` leaves the element at `i` as it was. -/
theorem foldl_miss (d : ScatterDims s si u) (idx : IVec si w) (upd : u.Idx → α) (i : s.Idx) (L : List (Fin u.numel))
    (r : s.Idx → α) (h : ∀ n ∈ L, d.resultIdx? (u.rowMajor.symm n) idx ≠ some i) :
    (L.foldl (step d idx upd) r) i = r i := by
  induction L generalizing r with
  | nil => rfl
  | cons n L ih =>
    rw [List.foldl_cons, ih _ (fun m hm => h m (List.mem_cons_of_mem _ hm)),
      step_miss d idx upd r n i (h n List.mem_cons_self)]

/-- Folding over a list without repeats in which `n0` is the one update index number that lands at `i` leaves the
    update's element of `n0` at `i`: the step of `n0` writes it and no later step touches `i`. -/
theorem foldl_hit (d : ScatterDims s si u) (idx : IVec si w) (upd : u.Idx → α) (i : s.Idx) (n0 : Fin u.numel)
    (h0 : d.resultIdx? (u.rowMajor.symm n0) idx = some i) (L : List (Fin u.numel)) (hnd : L.Nodup) (hmem : n0 ∈ L)
    (huniq : ∀ n ∈ L, d.resultIdx? (u.rowMajor.symm n) idx = some i → n = n0) (r : s.Idx → α) :
    (L.foldl (step d idx upd) r) i = upd (u.rowMajor.symm n0) := by
  induction L generalizing r with
  | nil => exact absurd hmem List.not_mem_nil
  | cons n L ih =>
    rw [List.foldl_cons]
    rw [List.nodup_cons] at hnd
    by_cases hn : n = n0
    · subst hn
      rw [foldl_miss d idx upd i L _ (fun m hm e => hnd.1 (huniq m (List.mem_cons_of_mem _ hm) e ▸ hm)),
        step_hit d idx upd r n i h0]
    · have hm : n0 ∈ L := by
        rcases List.mem_cons.1 hmem with e | e
        · exact absurd e.symm hn
        · exact e
      exact ih hnd.2 hm (fun m hm' => huniq m (List.mem_cons_of_mem _ hm')) _

/-- THE OVERWRITE SCATTER AT AN INDEX NO UPDATE LANDS AT: the operand's element. -/
theorem scatter_set_miss (d : ScatterDims s si u) (x : s.Idx → α) (idx : IVec si w) (upd : u.Idx → α) (i : s.Idx)
    (h : ∀ j, d.resultIdx? j idx ≠ some i) : Host.scatter d (fun _ b => b) x idx upd i = x i := by
  rw [scatter_eq_foldl]
  exact foldl_miss d idx upd i _ x (fun n _ => h _)

/-- THE OVERWRITE SCATTER AT AN INDEX EXACTLY ONE UPDATE LANDS AT: that update's element. -/
theorem scatter_set_hit (d : ScatterDims s si u) (x : s.Idx → α) (idx : IVec si w) (upd : u.Idx → α) (i : s.Idx)
    (j0 : u.Idx) (h0 : d.resultIdx? j0 idx = some i) (huniq : ∀ j, d.resultIdx? j idx = some i → j = j0) :
    Host.scatter d (fun _ b => b) x idx upd i = upd j0 := by
  rw [scatter_eq_foldl]
  have h := foldl_hit d idx upd i (u.rowMajor j0) (by rw [Equiv.symm_apply_apply]; exact h0) (List.finRange u.numel)
    (List.nodup_finRange _) (List.mem_finRange _)
    (fun n _ hn => by rw [← huniq _ hn, Equiv.apply_symm_apply]) x
  rw [Equiv.symm_apply_apply] at h
  exact h

end General

/-! ## Part 2: a `16 × 64` window written into a `32 × 192` operand at a start index read off a two-element vector -/

section Window

/-- The operand's shape. -/
abbrev S32x192 : Shape := ⟨2, ![32, 192]⟩
/-- The index vector's shape: the two components of one start index. -/
abbrev S2 : Shape := ⟨1, ![2]⟩
/-- The update's shape: one whole window. -/
abbrev S16x64 : Shape := ⟨2, ![16, 64]⟩
/-- The shape of one component of the start index. -/
abbrev S1 : Shape := ⟨1, ![1]⟩
/-- The scalar shape. -/
abbrev S_ : Shape := ⟨0, ![]⟩

/-- The dimension numbers of the window scatter: both update axes are window axes, no operand axis is inserted,
    component `k` of the start index is for operand axis `k`, and the index vector is the indices' one axis. -/
abbrev dims (hwf : ScatterDims.WF S32x192 S2 S16x64 [0, 1] [] [0, 1] 0) : ScatterDims S32x192 S2 S16x64 :=
  { updateWindowDims := [0, 1], insertedWindowDims := [], scatterDimsToOperandDims := [0, 1], indexVectorDim := 0,
    wf := hwf }

/-- Two rank-2 indices with equal coordinates are equal. -/
theorem ix2_congr {n0 n1 : Nat} {a a' : Fin n0} {b b' : Fin n1} (ha : a = a') (hb : b = b') : ix2 a b = ix2 a' b' := by
  subst ha hb; rfl

section Concat
variable {α : Type}

/-- A concatenation of two one-element vectors reads the first at position `0`. -/
theorem concat_zero (a b : S1.Idx → α) (hc : Shape.Concatenates [S1, S1] S2 0) :
    concatenate S2 0 [⟨S1, a⟩, ⟨S1, b⟩] hc (ix1 0) = a (ix1 0) := by
  change a _ = a _
  congr 1
  funext b1
  match b1 with
  | ⟨0, _⟩ => rfl

/-- A concatenation of two one-element vectors reads the second at position `1`. -/
theorem concat_one (a b : S1.Idx → α) (hc : Shape.Concatenates [S1, S1] S2 0) :
    concatenate S2 0 [⟨S1, a⟩, ⟨S1, b⟩] hc (ix1 1) = b (ix1 0) := by
  change b _ = b _
  congr 1
  funext b1
  match b1 with
  | ⟨0, _⟩ => rfl

end Concat

/-- The index vector of two broadcast scalar constants `v0`, `v1` reads `v0` at position `0`. -/
theorem idx_zero (v0 v1 : BitVec 32) (hb : S_.BroadcastsInDim S1 (![] : Fin 0 → Fin S1.rank))
    (hc : Shape.Concatenates [S1, S1] S2 0) :
    (concatenate S2 0 [⟨S1, broadcastInDim S1 ![] hb (constantI S_ 32 v0)⟩,
      ⟨S1, broadcastInDim S1 ![] hb (constantI S_ 32 v1)⟩] hc : IVec S2 32) (ix1 0) = v0 := rfl

/-- The index vector of two broadcast scalar constants `v0`, `v1` reads `v1` at position `1`. -/
theorem idx_one (v0 v1 : BitVec 32) (hb : S_.BroadcastsInDim S1 (![] : Fin 0 → Fin S1.rank))
    (hc : Shape.Concatenates [S1, S1] S2 0) :
    (concatenate S2 0 [⟨S1, broadcastInDim S1 ![] hb (constantI S_ 32 v0)⟩,
      ⟨S1, broadcastInDim S1 ![] hb (constantI S_ 32 v1)⟩] hc : IVec S2 32) (ix1 1) = v1 := rfl

section Read
variable {w : Nat}

/-- The start of the window on the operand's row axis is the index vector's component `0`, read signed. -/
theorem start_zero (hwf : ScatterDims.WF S32x192 S2 S16x64 [0, 1] [] [0, 1] 0) (j : S16x64.Idx) (idx : IVec S2 w) :
    (dims hwf).start j idx 0 = (idx (ix1 0)).toInt := by
  unfold ScatterDims.start
  rw [dif_pos (show (0 : Fin S32x192.rank) ∈ ([0, 1] : List (Fin S32x192.rank)) from by decide)]
  congr 2
  funext b
  match b with
  | ⟨0, _⟩ => rfl

/-- The start of the window on the operand's column axis is the index vector's component `1`, read signed. -/
theorem start_one (hwf : ScatterDims.WF S32x192 S2 S16x64 [0, 1] [] [0, 1] 0) (j : S16x64.Idx) (idx : IVec S2 w) :
    (dims hwf).start j idx 1 = (idx (ix1 1)).toInt := by
  unfold ScatterDims.start
  rw [dif_pos (show (1 : Fin S32x192.rank) ∈ ([0, 1] : List (Fin S32x192.rank)) from by decide)]
  congr 2
  funext b
  match b with
  | ⟨0, _⟩ => rfl

/-- The window coordinate on the operand's row axis is the update index's row. -/
theorem window_zero (hwf : ScatterDims.WF S32x192 S2 S16x64 [0, 1] [] [0, 1] 0) (j : S16x64.Idx) :
    (dims hwf).window j 0 = (j 0).val := by
  unfold ScatterDims.window
  rw [dif_pos (show (0 : Fin S32x192.rank) ∈ S32x192.kept [] from by decide)]
  rfl

/-- The window coordinate on the operand's column axis is the update index's column. -/
theorem window_one (hwf : ScatterDims.WF S32x192 S2 S16x64 [0, 1] [] [0, 1] 0) (j : S16x64.Idx) :
    (dims hwf).window j 1 = (j 1).val := by
  unfold ScatterDims.window
  rw [dif_pos (show (1 : Fin S32x192.rank) ∈ S32x192.kept [] from by decide)]
  rfl

end Read

section Apply
variable {w : Nat}

/-- WHERE THE WINDOW LANDS: with the start index `(r0, c0)` keeping the whole window inside the operand, update index
    `j` lands at `(r0 + j 0, c0 + j 1)`. -/
theorem resultIdx_window (hwf : ScatterDims.WF S32x192 S2 S16x64 [0, 1] [] [0, 1] 0) (idx : IVec S2 w) (r0 c0 : Nat)
    (h0 : (idx (ix1 0)).toInt = r0) (h1 : (idx (ix1 1)).toInt = c0) (hr : r0 + 16 ≤ 32) (hc : c0 + 64 ≤ 192)
    (j : S16x64.Idx) :
    (dims hwf).resultIdx? j idx
      = some (ix2 (⟨r0 + (j 0).val, by have := idx2_lt0 j; omega⟩ : Fin 32)
          (⟨c0 + (j 1).val, by have := idx2_lt1 j; omega⟩ : Fin 192)) := by
  have hs0 : (dims hwf).start j idx 0 = r0 := (start_zero hwf j idx).trans h0
  have hs1 : (dims hwf).start j idx 1 = c0 := (start_one hwf j idx).trans h1
  have hw0 := window_zero hwf j
  have hw1 := window_one hwf j
  have hj0 := idx2_lt0 j
  have hj1 := idx2_lt1 j
  have hz0 : S32x192.size 0 = 32 := rfl
  have hz1 : S32x192.size 1 = 192 := rfl
  have H : ∀ a : Fin S32x192.rank, 0 ≤ (dims hwf).start j idx a + ((dims hwf).window j a : Int) ∧
      (dims hwf).start j idx a + ((dims hwf).window j a : Int) < (S32x192.size a : Int) :=
    Fin.forall_fin_two.2 ⟨by rw [hs0, hw0, hz0]; omega, by rw [hs1, hw1, hz1]; omega⟩
  unfold ScatterDims.resultIdx?
  rw [dif_pos H]
  congr 1
  funext a
  match a with
  | ⟨0, _⟩ =>
    refine Fin.ext ?_
    show ((dims hwf).start j idx 0 + ((dims hwf).window j 0 : Int)).toNat = r0 + (j 0).val
    rw [hs0, hw0]; omega
  | ⟨1, _⟩ =>
    refine Fin.ext ?_
    show ((dims hwf).start j idx 1 + ((dims hwf).window j 1 : Int)).toNat = c0 + (j 1).val
    rw [hs1, hw1]; omega

/-- THE WINDOW SCATTER AT AN INDEX: with the start index `(r0, c0)` keeping the whole window inside the operand, the
    overwrite scatter reads the update at `(k - r0, c - c0)` inside the window `[r0, r0 + 16) × [c0, c0 + 64)` and the
    operand outside it. -/
theorem scatter_window_apply {α : Type} (hwf : ScatterDims.WF S32x192 S2 S16x64 [0, 1] [] [0, 1] 0) (idx : IVec S2 w)
    (r0 c0 : Nat) (h0 : (idx (ix1 0)).toInt = r0) (h1 : (idx (ix1 1)).toInt = c0) (hr : r0 + 16 ≤ 32)
    (hc : c0 + 64 ≤ 192) (x : S32x192.Idx → α) (upd : S16x64.Idx → α) (k : Fin 32) (c : Fin 192) :
    Host.scatter (dims hwf) (fun _ b => b) x idx upd (ix2 k c)
      = if h : (r0 ≤ k.val ∧ k.val < r0 + 16) ∧ (c0 ≤ c.val ∧ c.val < c0 + 64) then
          upd (ix2 (⟨k.val - r0, by omega⟩ : Fin 16) (⟨c.val - c0, by omega⟩ : Fin 64))
        else x (ix2 k c) := by
  by_cases h : (r0 ≤ k.val ∧ k.val < r0 + 16) ∧ (c0 ≤ c.val ∧ c.val < c0 + 64)
  · rw [dif_pos h]
    refine scatter_set_hit (dims hwf) x idx upd (ix2 k c)
      (ix2 (⟨k.val - r0, by omega⟩ : Fin 16) (⟨c.val - c0, by omega⟩ : Fin 64)) ?_ ?_
    · rw [resultIdx_window hwf idx r0 c0 h0 h1 hr hc]
      exact congrArg some (ix2_congr (Fin.ext (by show r0 + (k.val - r0) = k.val; omega))
        (Fin.ext (by show c0 + (c.val - c0) = c.val; omega)))
    · intro j hj
      rw [resultIdx_window hwf idx r0 c0 h0 h1 hr hc] at hj
      have e := Option.some.inj hj
      have e0 : r0 + (j 0).val = k.val := congrArg (fun f : S32x192.Idx => (f 0).val) e
      have e1 : c0 + (j 1).val = c.val := congrArg (fun f : S32x192.Idx => (f 1).val) e
      rw [eq_ix2 j]
      exact ix2_congr (Fin.ext (by show (j 0).val = k.val - r0; omega)) (Fin.ext (by show (j 1).val = c.val - c0; omega))
  · rw [dif_neg h]
    refine scatter_set_miss (dims hwf) x idx upd (ix2 k c) (fun j hj => h ?_)
    rw [resultIdx_window hwf idx r0 c0 h0 h1 hr hc] at hj
    have e := Option.some.inj hj
    have e0 : r0 + (j 0).val = k.val := congrArg (fun f : S32x192.Idx => (f 0).val) e
    have e1 : c0 + (j 1).val = c.val := congrArg (fun f : S32x192.Idx => (f 1).val) e
    have hj0 := idx2_lt0 j
    have hj1 := idx2_lt1 j
    omega

end Apply

section Records
variable {w : Nat}

/-- The window's result indices, for any record with these dimension numbers (whatever proof of its conditions it
    carries). -/
theorem resultIdx_window_of_eq (d : ScatterDims S32x192 S2 S16x64) (huw : d.updateWindowDims = [0, 1])
    (hiw : d.insertedWindowDims = []) (hsd : d.scatterDimsToOperandDims = [0, 1]) (hiv : d.indexVectorDim = 0)
    (idx : IVec S2 w) (r0 c0 : Nat) (h0 : (idx (ix1 0)).toInt = r0) (h1 : (idx (ix1 1)).toInt = c0)
    (hr : r0 + 16 ≤ 32) (hc : c0 + 64 ≤ 192) (j : S16x64.Idx) :
    d.resultIdx? j idx
      = some (ix2 (⟨r0 + (j 0).val, by have := idx2_lt0 j; omega⟩ : Fin 32)
          (⟨c0 + (j 1).val, by have := idx2_lt1 j; omega⟩ : Fin 192)) := by
  obtain ⟨uw, iw, sd, iv, wf⟩ := d
  dsimp only at huw hiw hsd hiv
  subst huw hiw hsd hiv
  exact resultIdx_window wf idx r0 c0 h0 h1 hr hc j

/-- The window scatter at an index, for any record with these dimension numbers (whatever proof of its conditions it
    carries). -/
theorem scatter_window_apply_of_eq {α : Type} (d : ScatterDims S32x192 S2 S16x64) (huw : d.updateWindowDims = [0, 1])
    (hiw : d.insertedWindowDims = []) (hsd : d.scatterDimsToOperandDims = [0, 1]) (hiv : d.indexVectorDim = 0)
    (idx : IVec S2 w) (r0 c0 : Nat) (h0 : (idx (ix1 0)).toInt = r0) (h1 : (idx (ix1 1)).toInt = c0)
    (hr : r0 + 16 ≤ 32) (hc : c0 + 64 ≤ 192) (x : S32x192.Idx → α) (upd : S16x64.Idx → α) (k : Fin 32) (c : Fin 192) :
    Host.scatter d (fun _ b => b) x idx upd (ix2 k c)
      = if h : (r0 ≤ k.val ∧ k.val < r0 + 16) ∧ (c0 ≤ c.val ∧ c.val < c0 + 64) then
          upd (ix2 (⟨k.val - r0, by omega⟩ : Fin 16) (⟨c.val - c0, by omega⟩ : Fin 64))
        else x (ix2 k c) := by
  obtain ⟨uw, iw, sd, iv, wf⟩ := d
  dsimp only at huw hiw hsd hiv
  subst huw hiw hsd hiv
  exact scatter_window_apply wf idx r0 c0 h0 h1 hr hc x upd k c

/-- THE WINDOW SCATTER AT A CONSTANT START INDEX, AT AN INDEX: the index vector is the concatenation of the two
    broadcast scalar constants `v0`, `v1`, whose signed values `r0`, `c0` keep the whole window inside the
    operand. -/
theorem scatter_const_window_apply {α : Type} (d : ScatterDims S32x192 S2 S16x64) (huw : d.updateWindowDims = [0, 1])
    (hiw : d.insertedWindowDims = []) (hsd : d.scatterDimsToOperandDims = [0, 1]) (hiv : d.indexVectorDim = 0)
    (v0 v1 : BitVec 32) (hb : S_.BroadcastsInDim S1 (![] : Fin 0 → Fin S1.rank))
    (hcc : Shape.Concatenates [S1, S1] S2 0) (r0 c0 : Nat) (h0 : v0.toInt = r0) (h1 : v1.toInt = c0)
    (hr : r0 + 16 ≤ 32) (hc : c0 + 64 ≤ 192) (x : S32x192.Idx → α) (upd : S16x64.Idx → α) (k : Fin 32) (c : Fin 192) :
    Host.scatter d (fun _ b => b) x
        (concatenate S2 0 [⟨S1, broadcastInDim S1 ![] hb (constantI S_ 32 v0)⟩,
          ⟨S1, broadcastInDim S1 ![] hb (constantI S_ 32 v1)⟩] hcc : IVec S2 32) upd (ix2 k c)
      = if h : (r0 ≤ k.val ∧ k.val < r0 + 16) ∧ (c0 ≤ c.val ∧ c.val < c0 + 64) then
          upd (ix2 (⟨k.val - r0, by omega⟩ : Fin 16) (⟨c.val - c0, by omega⟩ : Fin 64))
        else x (ix2 k c) :=
  scatter_window_apply_of_eq d huw hiw hsd hiv _ r0 c0
    ((congrArg BitVec.toInt (idx_zero v0 v1 hb hcc)).trans h0) ((congrArg BitVec.toInt (idx_one v0 v1 hb hcc)).trans h1)
    hr hc x upd k c

end Records

end Window

end Cert.LibScatterSet
-- ==== Proof.HostPrelude.lean ====
/-
  What the host program computes before the kernel, as functions of the arrays mu, sigma and rho.

  From sigma it forms inv = 1 / ((2 · sigma) · sigma), entry by entry. It then builds
    * the [32, 192] weight matrix: the zero matrix overwritten by three 16 × 64 windows —
        rows 0..15,  columns 0..63:     the transpose of -inv,
        rows 16..31, columns 64..127:   the transpose of 2 · (mu · inv),
        rows 16..31, columns 128..191:  the transpose of the first 16 columns of rho;
    * the [1, 64] row of Σ_a (mu · mu) · inv, summed over the 16 features;
    * the [1, 64] row of the last column of rho.
  Each is first named as the composed term of the host operations, then read at coordinates, and last the product of
  a sample's row (x², x) with the weight matrix is read in its three column bands.
-/
import proofs.«128864_j32693291057854_2_alg».proof.Proof.Gen.KernelIdeal.Frame
import proofs.«128864_j32693291057854_2_alg».proof.Proof.LibScatterSet
import proofs.«128864_j32693291057854_2_alg».proof.Proof.Payload
import proofs.«128864_j32693291057854_2_alg».proof.Proof.Spec
import Idealize.ShloMosaic.Lib.StableHlo.Run
import Idealize.ShloMosaic.Lib.Pipeline.Value
import Idealize.ShloMosaic.PureOps.Ideal.Laws
import Idealize.ShloMosaic.Lib.ValueIdx

set_option maxRecDepth 16384

noncomputable section

namespace Cert.Fuzzy.Host

open Cert.KernelIdeal Cert.KernelIdeal.Gen Idealize.ShloMosaic Idealize.ShloMosaic.TcCoe Idealize.SL.Sem
  Idealize.ShloMosaic.StableHlo Idealize.ShloMosaic.ValueIdx Cert.Fuzzy

/-! ## The host operations' composed terms -/

/-- The array inv = 1 / ((2 · sigma) · sigma), as the host operations spell it. -/
def invT (sg : S64x16.Idx → EReal) : S64x16.Idx → EReal :=
  Host.divf (F := Ideal) (φ := .f32) (broadcastInDim S64x16 ![] bcast_S_S64x16 (constant (F := Ideal) S_ .f32 0x3F800000#32))
    (mulf (F := Ideal) (φ := .f32) (mulf (F := Ideal) (φ := .f32) (broadcastInDim S64x16 ![] bcast_S_S64x16 (constant (F := Ideal) S_ .f32 0x40000000#32)) sg) sg)

/-- The index vector of a scatter: the two start components, each a broadcast scalar constant. -/
def startVec (v0 v1 : BitVec 32) : IVec S2 32 :=
  concatenate S2 0 [⟨S1, broadcastInDim S1 ![] bcast_S_S1 (constantI S_ 32 v0)⟩,
    ⟨S1, broadcastInDim S1 ![] bcast_S_S1 (constantI S_ 32 v1)⟩] concatenates_S1_S1_S2_d0

/-- The first window's update: the transpose of -inv. -/
def updSq (sg : S64x16.Idx → EReal) : S16x64.Idx → EReal :=
  Host.negf (F := Ideal) (φ := .f32) (transpose S16x64 [1, 0] (invT sg) transposes_S64x16_S16x64_1_0)

/-- The second window's update: 2 times the transpose of mu · inv. -/
def updCross (mu sg : S64x16.Idx → EReal) : S16x64.Idx → EReal :=
  mulf (F := Ideal) (φ := .f32) (broadcastInDim S16x64 ![] bcast_S_S16x64 (constant (F := Ideal) S_ .f32 0x40000000#32))
    (transpose S16x64 [1, 0] (mulf (F := Ideal) (φ := .f32) mu (invT sg)) transposes_S64x16_S16x64_1_0)

/-- The third window's update: the transpose of the first 16 columns of rho. -/
def updRule (rho : S64x17.Idx → EReal) : S16x64.Idx → EReal :=
  transpose S16x64 [1, 0] (extractStridedSlice S64x16 ![0, 0] rho slices_S64x17_S64x16_0_0) transposes_S64x16_S16x64_1_0

/-- The weight matrix: the zero matrix overwritten by the three windows, in the program's order. -/
def Wt (mu sg : S64x16.Idx → EReal) (rho : S64x17.Idx → EReal) : S32x192.Idx → EReal :=
  Host.scatter scatter_S32x192_S2_S16x64_01_n_01_0 (fun _ b => b)
    (Host.scatter scatter_S32x192_S2_S16x64_01_n_01_0 (fun _ b => b)
      (Host.scatter scatter_S32x192_S2_S16x64_01_n_01_0 (fun _ b => b)
        (broadcastInDim S32x192 ![] bcast_S_S32x192 (constant (F := Ideal) S_ .f32 0x00000000#32))
        (startVec 0#32 0#32) (updSq sg))
      (startVec 16#32 64#32) (updCross mu sg))
    (startVec 16#32 128#32) (updRule rho)

/-- The row of Σ_a (mu · mu) · inv, reshaped to [1, 64]. -/
def M2t (mu sg : S64x16.Idx → EReal) : S1x64.Idx → EReal :=
  shapeCast S1x64
    (Host.reduceAdd (F := Ideal) (φ := .f32) (mulf (F := Ideal) (φ := .f32) (mulf (F := Ideal) (φ := .f32) mu mu) (invT sg))
      (constant (F := Ideal) S_ .f32 0x00000000#32) reducesTo_S64x16_S64_d1 h_S_)
    shapeCasts_S64_S1x64

/-- The last column of rho, reshaped to [1, 64]. -/
def RBt (rho : S64x17.Idx → EReal) : S1x64.Idx → EReal :=
  shapeCast S1x64
    (shapeCast S64 (extractStridedSlice S64x1 ![0, 16] rho slices_S64x17_S64x1_0_16) shapeCasts_S64x1_S64)
    shapeCasts_S64_S1x64

/-! ## The arrays the kernel region finds -/

section Arrays
variable (m : (ℓ : Loc nD τ sig) → Buf (Elt Ideal) ℓ) (c : Dev nD)

set_option maxHeartbeats 2000000 in
/-- The row of Σ (mu · mu) · inv, as the region finds it. -/
theorem V_m2 : (V m c main_v13 : S1x64.Idx → EReal)
    = M2t (m ((c : Thread nD τ).loc main_arg1)) (m ((c : Thread nD τ).loc main_arg2)) := by
  dsimp only [Gen.V, Gen.hostOps0]
  after_results_simp
  rfl

set_option maxHeartbeats 2000000 in
/-- The row of rho's last column, as the region finds it. -/
theorem V_rb : (V m c main_v9 : S1x64.Idx → EReal) = RBt (m ((c : Thread nD τ).loc main_arg3)) := by
  dsimp only [Gen.V, Gen.hostOps0]
  after_results_simp
  rfl

set_option maxHeartbeats 4000000 in
/-- The weight matrix, as the region finds it. -/
theorem V_w : (V m c main_v32 : S32x192.Idx → EReal)
    = Wt (m ((c : Thread nD τ).loc main_arg1)) (m ((c : Thread nD τ).loc main_arg2)) (m ((c : Thread nD τ).loc main_arg3)) := by
  dsimp only [Gen.V, Gen.hostOps0]
  after_results_simp
  repeat (first
    | rw [nullary_result] | rw [unary_result] | rw [binary_result] | rw [ternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

end Arrays

/-! ## The composed terms read at coordinates -/

/-- The entry of inv for rule `r` and feature `a`: 1 / ((2 · sigma) · sigma). -/
def invAt (sg : Cert.Fuzzy.SP.Idx → EReal) (r : Fin 64) (a : Fin 16) : EReal :=
  Ideal.div (Ideal.ofBits .f32 0x3F800000#32) ((Cert.Fuzzy.two * sg (ix2 r a)) * sg (ix2 r a))

/-- The array inv at (r, a). -/
theorem invT_apply (sg : S64x16.Idx → EReal) (r : Fin 64) (a : Fin 16) : invT sg (ix2 r a) = invAt sg r a := rfl

/-- A transpose of a [64, 16] array at (a, r) is the array at (r, a). -/
theorem transpose_at (v : S64x16.Idx → EReal) (a : Fin 16) (r : Fin 64) :
    transpose S16x64 [1, 0] v transposes_S64x16_S16x64_1_0 (ix2 a r) = v (ix2 r a) := by
  refine transpose_apply [1, 0] v transposes_S64x16_S16x64_1_0 (ix2 a r) (ix2 r a) fun b => ?_
  match b with
  | ⟨0, _⟩ => rfl
  | ⟨1, _⟩ => rfl

/-- The first window's update at (a, r): minus inv at (r, a). -/
theorem updSq_apply (sg : S64x16.Idx → EReal) (a : Fin 16) (r : Fin 64) : updSq sg (ix2 a r) = -(invAt sg r a) := by
  unfold updSq
  show -(transpose S16x64 [1, 0] (invT sg) transposes_S64x16_S16x64_1_0 (ix2 a r)) = _
  rw [transpose_at, invT_apply]

/-- The second window's update at (a, r): 2 · (mu · inv) at (r, a). -/
theorem updCross_apply (mu sg : S64x16.Idx → EReal) (a : Fin 16) (r : Fin 64) :
    updCross mu sg (ix2 a r) = Cert.Fuzzy.two * (mu (ix2 r a) * invAt sg r a) := by
  unfold updCross
  show Cert.Fuzzy.two * (transpose S16x64 [1, 0] (mulf (F := Ideal) (φ := .f32) mu (invT sg)) transposes_S64x16_S16x64_1_0 (ix2 a r)) = _
  rw [transpose_at]
  rfl

/-- The third window's update at (a, r): rho at (r, a). -/
theorem updRule_apply (rho : S64x17.Idx → EReal) (a : Fin 16) (r : Fin 64) :
    updRule rho (ix2 a r) = rho (ix2 r (Cert.Fuzzy.col a)) := by
  unfold updRule
  rw [transpose_at]
  refine extractStridedSlice_apply ![0, 0] rho slices_S64x17_S64x16_0_0 (ix2 r a) (ix2 r (Cert.Fuzzy.col a)) fun b => ?_
  match b with
  | ⟨0, _⟩ => show r.val = 0 + r.val; omega
  | ⟨1, _⟩ => show a.val = 0 + a.val; omega

/-- A reshape of a length-64 vector to [1, 64] at (0, r) is the vector at r. -/
theorem row_at (v : S64.Idx → EReal) (r : Fin 64) :
    shapeCast S1x64 v shapeCasts_S64_S1x64 (ix2 (0 : Fin 1) r) = v (ix1 r) := by
  refine shapeCast_apply v shapeCasts_S64_S1x64 (ix2 (0 : Fin 1) r) (ix1 r) ?_
  rw [Shape.rowMajor_val_one, Shape.rowMajor_val_two]
  show r.val = 0 * 64 + r.val
  omega

/-- THE ROW OF SQUARES at rule r: the sum over the features of (mu · mu) · inv. -/
theorem M2t_apply (mu sg : S64x16.Idx → EReal) (r : Fin 64) :
    M2t mu sg (ix2 (0 : Fin 1) r) = ∑ a : Fin 16, (mu (ix2 r a) * mu (ix2 r a)) * invAt sg r a := by
  unfold M2t
  rw [row_at]
  simp only [Host.reduceAdd, Ideal.hostReduceAdd_def]
  rw [Ideal.hostReduceAdd_single reducesTo_S64x16_S64_d1 (by decide)]
  have hz : (constant (F := Ideal) S_ .f32 0x00000000#32) (Shape.Idx.first h_S_) = (0 : EReal) := Ideal.ofBits_zero_f32
  rw [hz, zero_add]
  refine Finset.sum_congr rfl fun a _ => ?_
  have hi : (Shape.Reduces.lift (show S64x16.Reduces [1] S64 by decide) (ix1 r) a) = ix2 r a := by
    refine ix2_ext _ _ _ ?_ ?_
    · rw [Shape.Reduces.lift_val]; rfl
    · rw [Shape.Reduces.lift_val]; rfl
  rw [hi]
  rfl

/-- THE BIAS ROW at rule r: the last column of rho. -/
theorem RBt_apply (rho : S64x17.Idx → EReal) (r : Fin 64) :
    RBt rho (ix2 (0 : Fin 1) r) = rho (ix2 r Cert.Fuzzy.biasCol) := by
  unfold RBt
  rw [row_at]
  have h1 : shapeCast S64 (extractStridedSlice S64x1 ![0, 16] rho slices_S64x17_S64x1_0_16) shapeCasts_S64x1_S64 (ix1 r)
      = extractStridedSlice S64x1 ![0, 16] rho slices_S64x17_S64x1_0_16 (ix2 r (0 : Fin 1)) := by
    refine shapeCast_apply _ shapeCasts_S64x1_S64 (ix1 r) (ix2 r (0 : Fin 1)) ?_
    rw [Shape.rowMajor_val_one, Shape.rowMajor_val_two]
    show r.val * 1 + 0 = r.val
    omega
  rw [h1]
  refine extractStridedSlice_apply ![0, 16] rho slices_S64x17_S64x1_0_16 (ix2 r (0 : Fin 1)) (ix2 r Cert.Fuzzy.biasCol) fun b => ?_
  match b with
  | ⟨0, _⟩ => show r.val = 0 + r.val; omega
  | ⟨1, _⟩ => rfl

/-! ## The weight matrix's entries -/

/-- The zero matrix's entries are zero. -/
theorem zero_at (i : S32x192.Idx) :
    broadcastInDim S32x192 ![] bcast_S_S32x192 (constant (F := Ideal) S_ .f32 0x00000000#32) i = (0 : EReal) :=
  Ideal.ofBits_zero_f32

/-- THE WEIGHT MATRIX AT (k, c): the last window written that holds (k, c) decides, and outside the three windows the
    entry is zero. -/
theorem Wt_apply (mu sg : S64x16.Idx → EReal) (rho : S64x17.Idx → EReal) (k : Fin 32) (c : Fin 192) :
    Wt mu sg rho (ix2 k c) =
      if h3 : (16 ≤ k.val ∧ k.val < 16 + 16) ∧ (128 ≤ c.val ∧ c.val < 128 + 64) then
        updRule rho (ix2 (⟨k.val - 16, by omega⟩ : Fin 16) (⟨c.val - 128, by omega⟩ : Fin 64))
      else if h2 : (16 ≤ k.val ∧ k.val < 16 + 16) ∧ (64 ≤ c.val ∧ c.val < 64 + 64) then
        updCross mu sg (ix2 (⟨k.val - 16, by omega⟩ : Fin 16) (⟨c.val - 64, by omega⟩ : Fin 64))
      else if h1 : (0 ≤ k.val ∧ k.val < 0 + 16) ∧ (0 ≤ c.val ∧ c.val < 0 + 64) then
        updSq sg (ix2 (⟨k.val - 0, by omega⟩ : Fin 16) (⟨c.val - 0, by omega⟩ : Fin 64))
      else 0 := by
  unfold Wt startVec
  rw [Cert.LibScatterSet.scatter_const_window_apply scatter_S32x192_S2_S16x64_01_n_01_0 rfl rfl rfl rfl 16#32 128#32
      bcast_S_S1 concatenates_S1_S1_S2_d0 16 128 (by decide) (by decide) (by omega) (by omega),
    Cert.LibScatterSet.scatter_const_window_apply scatter_S32x192_S2_S16x64_01_n_01_0 rfl rfl rfl rfl 16#32 64#32
      bcast_S_S1 concatenates_S1_S1_S2_d0 16 64 (by decide) (by decide) (by omega) (by omega),
    Cert.LibScatterSet.scatter_const_window_apply scatter_S32x192_S2_S16x64_01_n_01_0 rfl rfl rfl rfl 0#32 0#32
      bcast_S_S1 concatenates_S1_S1_S2_d0 0 0 (by decide) (by decide) (by omega) (by omega),
    zero_at]

section Entries
variable (mu sg : S64x16.Idx → EReal) (rho : S64x17.Idx → EReal) (a : Fin 16) (r : Fin 64)

/-- Rows 0..15, columns 0..63: minus inv, transposed. -/
theorem Wt_sq : Wt mu sg rho (ix2 (⟨a.val, by omega⟩ : Fin 32) (⟨0 + r.val, by omega⟩ : Fin 192)) = -(invAt sg r a) := by
  rw [Wt_apply, dif_neg (by dsimp only; omega), dif_neg (by dsimp only; omega), dif_pos (by dsimp only; omega)]
  exact (congrArg (updSq sg) (Cert.LibScatterSet.ix2_congr (Fin.ext (by show a.val - 0 = a.val; omega))
    (Fin.ext (by show 0 + r.val - 0 = r.val; omega)))).trans (updSq_apply sg a r)

/-- Rows 16..31, columns 0..63: zero. -/
theorem Wt_sq_zero : Wt mu sg rho (ix2 (⟨16 + a.val, by omega⟩ : Fin 32) (⟨0 + r.val, by omega⟩ : Fin 192)) = 0 := by
  rw [Wt_apply, dif_neg (by dsimp only; omega), dif_neg (by dsimp only; omega), dif_neg (by dsimp only; omega)]

/-- Rows 0..15, columns 64..127: zero. -/
theorem Wt_cross_zero : Wt mu sg rho (ix2 (⟨a.val, by omega⟩ : Fin 32) (⟨64 + r.val, by omega⟩ : Fin 192)) = 0 := by
  rw [Wt_apply, dif_neg (by dsimp only; omega), dif_neg (by dsimp only; omega), dif_neg (by dsimp only; omega)]

/-- Rows 16..31, columns 64..127: 2 · (mu · inv), transposed. -/
theorem Wt_cross : Wt mu sg rho (ix2 (⟨16 + a.val, by omega⟩ : Fin 32) (⟨64 + r.val, by omega⟩ : Fin 192))
    = Cert.Fuzzy.two * (mu (ix2 r a) * invAt sg r a) := by
  rw [Wt_apply, dif_neg (by dsimp only; omega), dif_pos (by dsimp only; omega)]
  exact (congrArg (updCross mu sg) (Cert.LibScatterSet.ix2_congr (Fin.ext (by show 16 + a.val - 16 = a.val; omega))
    (Fin.ext (by show 64 + r.val - 64 = r.val; omega)))).trans (updCross_apply mu sg a r)

/-- Rows 0..15, columns 128..191: zero. -/
theorem Wt_rule_zero : Wt mu sg rho (ix2 (⟨a.val, by omega⟩ : Fin 32) (⟨128 + r.val, by omega⟩ : Fin 192)) = 0 := by
  rw [Wt_apply, dif_neg (by dsimp only; omega), dif_neg (by dsimp only; omega), dif_neg (by dsimp only; omega)]

/-- Rows 16..31, columns 128..191: the first 16 columns of rho, transposed. -/
theorem Wt_rule : Wt mu sg rho (ix2 (⟨16 + a.val, by omega⟩ : Fin 32) (⟨128 + r.val, by omega⟩ : Fin 192))
    = rho (ix2 r (Cert.Fuzzy.col a)) := by
  rw [Wt_apply, dif_pos (by dsimp only; omega)]
  exact (congrArg (updRule rho) (Cert.LibScatterSet.ix2_congr (Fin.ext (by show 16 + a.val - 16 = a.val; omega))
    (Fin.ext (by show 128 + r.val - 128 = r.val; omega)))).trans (updRule_apply rho a r)

end Entries

/-! ## The row (x², x) times the weight matrix, in its three column bands -/

/-- A sum over 32 positions is the sum over the first 16 plus the sum over the last 16. -/
theorem sum_split (f : Fin 32 → EReal) :
    ∑ k : Fin 32, f k = (∑ a : Fin 16, f ⟨a.val, by omega⟩) + ∑ a : Fin 16, f ⟨16 + a.val, by omega⟩ :=
  Fin.sum_univ_add (a := 16) (b := 16) f

/-- The first 16 entries of the row (x², x) are the squares. -/
theorem lhsRow_lo (xr : Fin 16 → EReal) (a : Fin 16) : Pay.lhsRow xr ⟨a.val, by omega⟩ = xr a * xr a := by
  unfold Pay.lhsRow
  rw [dif_pos (show (⟨a.val, by omega⟩ : Fin 32).val < 16 from a.isLt)]

/-- The last 16 entries of the row (x², x) are the features. -/
theorem lhsRow_hi (xr : Fin 16 → EReal) (a : Fin 16) : Pay.lhsRow xr ⟨16 + a.val, by omega⟩ = xr a := by
  unfold Pay.lhsRow
  rw [dif_neg (by dsimp only; omega)]
  exact congrArg xr (Fin.ext (by show 16 + a.val - 16 = a.val; omega))

/-- THE FIRST BAND: the squares against minus inv. -/
theorem fused_sq (xr : Fin 16 → EReal) (mu sg : S64x16.Idx → EReal) (rho : S64x17.Idx → EReal) (r : Fin 64) :
    Pay.fusedRow xr (Wt mu sg rho) ⟨0 + r.val, by omega⟩ = ∑ a : Fin 16, (xr a * xr a) * -(invAt sg r a) := by
  unfold Pay.fusedRow
  rw [sum_split]
  refine (congrArg₂ (· + ·) (Finset.sum_congr rfl fun a _ => ?_) (Finset.sum_eq_zero fun a _ => ?_)).trans (add_zero _)
  · rw [Wt_sq, lhsRow_lo]
  · rw [Wt_sq_zero, mul_zero]

/-- THE SECOND BAND: the features against 2 · (mu · inv). -/
theorem fused_cross (xr : Fin 16 → EReal) (mu sg : S64x16.Idx → EReal) (rho : S64x17.Idx → EReal) (r : Fin 64) :
    Pay.fusedRow xr (Wt mu sg rho) ⟨64 + r.val, by omega⟩
      = ∑ a : Fin 16, xr a * (Cert.Fuzzy.two * (mu (ix2 r a) * invAt sg r a)) := by
  unfold Pay.fusedRow
  rw [sum_split]
  refine (congrArg₂ (· + ·) (Finset.sum_eq_zero fun a _ => ?_) (Finset.sum_congr rfl fun a _ => ?_)).trans (zero_add _)
  · rw [Wt_cross_zero, mul_zero]
  · rw [Wt_cross, lhsRow_hi]

/-- THE THIRD BAND: the features against rho's first 16 columns. -/
theorem fused_rule (xr : Fin 16 → EReal) (mu sg : S64x16.Idx → EReal) (rho : S64x17.Idx → EReal) (r : Fin 64) :
    Pay.fusedRow xr (Wt mu sg rho) ⟨128 + r.val, by omega⟩ = ∑ a : Fin 16, xr a * rho (ix2 r (Cert.Fuzzy.col a)) := by
  unfold Pay.fusedRow
  rw [sum_split]
  refine (congrArg₂ (· + ·) (Finset.sum_eq_zero fun a _ => ?_) (Finset.sum_congr rfl fun a _ => ?_)).trans (zero_add _)
  · rw [Wt_rule_zero, mul_zero]
  · rw [Wt_rule, lhsRow_hi]

end Cert.Fuzzy.Host

end
-- ==== Proof.LogwAlgebra.lean ====
/-
  The expanded square behind the logarithm of a firing strength.

  For real numbers x_a, mu_a and nonzero real numbers s_a (a = 1 … 16), put inv_a = 1 / ((2·s_a)·s_a).
  Then
      Σ_a x_a² · (−inv_a)  +  Σ_a x_a · (2 · (mu_a · inv_a))  −  Σ_a mu_a² · inv_a
        =  − Σ_a (x_a − mu_a)² / (2 · (s_a · s_a)),
  which is (x − mu)² = x² − 2·x·mu + mu² divided by 2·s², summed. The identity is stated on the
  extended reals with the extended quotient; since every number in it is real and every divisor
  is a nonzero real, each term is the image of a real number, each quotient is a product with a
  reciprocal, and the identity is the real one.
-/
import proofs.«128864_j32693291057854_2_alg».proof.Proof.Spec
import Idealize.ShloMosaic.PureOps.Ideal
import Mathlib.Tactic.FieldSimp
import Mathlib.Tactic.Ring

noncomputable section

namespace Cert.Fuzzy.Alg

open Cert.Fuzzy Idealize.ShloMosaic

/-- The single-precision pattern 0x40000000 denotes the real number 2. -/
theorem two_eq : Cert.Fuzzy.two = ((2 : ℝ) : EReal) := by
  simp [Ideal.ofBits, Ideal.ieee, -EReal.coe_mul]; norm_num

/-- The single-precision pattern 0x3F800000 denotes the real number 1. -/
theorem one_eq : Ideal.ofBits .f32 0x3F800000#32 = ((1 : ℝ) : EReal) := by
  simp [Ideal.ofBits, Ideal.ieee, -EReal.coe_mul]; norm_num

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal 1 / ((2·s)·s) of a nonzero real s, as the extended quotient of the patterns. -/
theorem inv_eq (s : ℝ) (hs : s ≠ 0) :
    Ideal.div (Ideal.ofBits .f32 0x3F800000#32) ((two * (s : EReal)) * (s : EReal))
      = ((1 / (2 * s * s) : ℝ) : EReal) := by
  have hd : (2 * s * s : ℝ) ≠ 0 := mul_ne_zero (mul_ne_zero two_ne_zero hs) hs
  rw [two_eq, one_eq, ← EReal.coe_mul, ← EReal.coe_mul, Ideal.div_coe hd, ← EReal.coe_mul, one_mul]

/-- The square term: x² · (−inv). -/
theorem sq_term (x s : ℝ) (hs : s ≠ 0) :
    ((x : EReal) * (x : EReal)) * -(Ideal.div (Ideal.ofBits .f32 0x3F800000#32) ((two * (s : EReal)) * (s : EReal)))
      = ((x * x * -(1 / (2 * s * s)) : ℝ) : EReal) := by
  rw [inv_eq s hs, ← EReal.coe_mul, ← EReal.coe_neg, ← EReal.coe_mul]

/-- The cross term: x · (2 · (mu · inv)). -/
theorem cross_term (x mu s : ℝ) (hs : s ≠ 0) :
    (x : EReal) * (two * ((mu : EReal) * Ideal.div (Ideal.ofBits .f32 0x3F800000#32) ((two * (s : EReal)) * (s : EReal))))
      = ((x * (2 * (mu * (1 / (2 * s * s)))) : ℝ) : EReal) := by
  rw [inv_eq s hs, two_eq, ← EReal.coe_mul, ← EReal.coe_mul, ← EReal.coe_mul]

/-- The constant term: mu² · inv. -/
theorem const_term (mu s : ℝ) (hs : s ≠ 0) :
    ((mu : EReal) * (mu : EReal)) * Ideal.div (Ideal.ofBits .f32 0x3F800000#32) ((two * (s : EReal)) * (s : EReal))
      = ((mu * mu * (1 / (2 * s * s)) : ℝ) : EReal) := by
  rw [inv_eq s hs, ← EReal.coe_mul, ← EReal.coe_mul]

/-- The unexpanded term: (x − mu)² / (2 · (s · s)). -/
theorem quot_term (x mu s : ℝ) (hs : s ≠ 0) :
    Ideal.div (((x : EReal) - (mu : EReal)) * ((x : EReal) - (mu : EReal))) (two * ((s : EReal) * (s : EReal)))
      = (((x - mu) * (x - mu) * (1 / (2 * (s * s))) : ℝ) : EReal) := by
  have hd : (2 * (s * s) : ℝ) ≠ 0 := mul_ne_zero two_ne_zero (mul_ne_zero hs hs)
  rw [two_eq, ← EReal.coe_sub, ← EReal.coe_mul, ← EReal.coe_mul, ← EReal.coe_mul, Ideal.div_coe hd,
    ← EReal.coe_mul]

/-- The expanded square equals the negated sum of the quotients. -/
theorem logw_expand (x mu s : Fin 16 → ℝ) (hs : ∀ a, s a ≠ 0) :
    (∑ a, ((x a : EReal) * (x a : EReal)) * -(Ideal.div (Ideal.ofBits .f32 0x3F800000#32) ((two * (s a : EReal)) * (s a : EReal))))
      + (∑ a, (x a : EReal) * (two * ((mu a : EReal) * Ideal.div (Ideal.ofBits .f32 0x3F800000#32) ((two * (s a : EReal)) * (s a : EReal)))))
      - (∑ a, ((mu a : EReal) * (mu a : EReal)) * Ideal.div (Ideal.ofBits .f32 0x3F800000#32) ((two * (s a : EReal)) * (s a : EReal)))
    = -(∑ a, Ideal.div (((x a : EReal) - (mu a : EReal)) * ((x a : EReal) - (mu a : EReal))) (two * ((s a : EReal) * (s a : EReal)))) := by
  rw [Finset.sum_congr rfl (fun a _ => sq_term (x a) (s a) (hs a)),
    Finset.sum_congr rfl (fun a _ => cross_term (x a) (mu a) (s a) (hs a)),
    Finset.sum_congr rfl (fun a _ => const_term (mu a) (s a) (hs a)),
    Finset.sum_congr rfl (fun a _ => quot_term (x a) (mu a) (s a) (hs a)),
    ← coe_sum, ← coe_sum, ← coe_sum, ← coe_sum, ← EReal.coe_add, ← EReal.coe_sub, ← EReal.coe_neg,
    EReal.coe_eq_coe_iff]
  -- the real identity, term by term
  rw [← Finset.sum_add_distrib, ← Finset.sum_sub_distrib, ← Finset.sum_neg_distrib]
  refine Finset.sum_congr rfl (fun a _ => ?_)
  have h := hs a
  field_simp
  ring

end Cert.Fuzzy.Alg

end
-- ==== Proof.Bridge.lean ====
/-
  The kernel's value for one sample is the layer function.

  The kernel receives, besides the samples x, a [32, 192] weight matrix and two rows of 64 numbers that the host builds from
  mu, sigma and rho: with inv(r, a) = 1 / ((2 · sigma(r, a)) · sigma(r, a)),
    * columns 0-63 of the matrix carry -inv against the squares x², columns 64-127 carry 2 · mu · inv against x, and
      columns 128-191 carry rho's 16 weights against x;
    * the first row is Σ_a mu(r, a)² · inv(r, a); the second is rho's bias column.
  So for rule r the kernel's exponent is  Σ_a x_a² · (-inv) + Σ_a x_a · (2 · mu · inv) - Σ_a mu² · inv  and its rule output
  is Σ_a x_a · rho(r, a) + rho(r, 16). The rule outputs are the reference's on all extended reals. The exponents are the
  reference's  -Σ_a (x_a - mu)² / (2 · sigma²)  when x, mu and sigma are real and sigma ≠ 0: then every term is a real number
  and the square expands. (At sigma = 0 the two differ: the reference meets 0 / 0 where x = mu.)
-/
import proofs.«128864_j32693291057854_2_alg».proof.Proof.HostPrelude
import proofs.«128864_j32693291057854_2_alg».proof.Proof.LogwAlgebra

noncomputable section

namespace Cert.Fuzzy.Bridge

open Cert.KernelIdeal Idealize.ShloMosaic Idealize.ShloMosaic.ValueIdx Cert.Fuzzy

/-- For real inputs with every sigma nonzero, the value the kernel stores for sample i — from the fused weight matrix and
    the two rows the host prelude builds out of mu, sigma and rho — is the layer function G at i. The rules' outputs agree
    term by term on the extended reals; the logarithms of the firing strengths agree because on real numbers with
    s ≠ 0 the square expands: (x - mu)² / (2 s²) = x² / (2 s s) - 2 x mu / (2 s s) + mu² / (2 s s). -/
theorem payRow_eq_G (x : SX.Idx → EReal) (mu sg : SP.Idx → EReal) (rho : SR.Idx → EReal)
    (hx : ∀ i, ∃ r : ℝ, x i = (r : EReal)) (hmu : ∀ i, ∃ r : ℝ, mu i = (r : EReal))
    (hsg : ∀ i, ∃ r : ℝ, sg i = (r : EReal)) (hne : ∀ i, sg i ≠ 0) (i : SO.Idx) :
    Pay.payRow (fun a => x (ix2 (i 0) a)) (Host.Wt mu sg rho) (Host.M2t mu sg) (Host.RBt rho) = G x mu sg rho i := by
  choose xR hxR using hx
  choose muR hmuR using hmu
  choose sgR hsgR using hsg
  have hl : ∀ r : Fin 64, Pay.logwRow (fun a => x (ix2 (i 0) a)) (Host.Wt mu sg rho) (Host.M2t mu sg) r = logw x mu sg (i 0) r := by
    intro r
    unfold Pay.logwRow logw
    rw [Host.fused_sq, Host.fused_cross, Host.M2t_apply]
    unfold Host.invAt
    simp only [hxR, hmuR, hsgR]
    exact Alg.logw_expand (fun a => xR (ix2 (i 0) a)) (fun a => muR (ix2 r a)) (fun a => sgR (ix2 r a))
      (fun a h => hne (ix2 r a) (by rw [hsgR, h]; rfl))
  have hr : ∀ r : Fin 64, Pay.ruleRow (fun a => x (ix2 (i 0) a)) (Host.Wt mu sg rho) (Host.RBt rho) r = rule x rho (i 0) r := by
    intro r
    unfold Pay.ruleRow rule
    rw [Host.fused_rule, Host.RBt_apply]
  unfold Pay.payRow G
  simp only [hl, hr]

end Cert.Fuzzy.Bridge

end
-- ==== Proof.RefIsG.lean ====
/-
  The reference program computes the layer function G: read one operation at a time, its result at sample n is
  ( Σ_r z(n, r) · w(n, r) ) / ( Σ_r w(n, r) + ε ) with z and w as in the specification. The only work is to
  identify the indices at which the composed broadcasts, slices and reductions read the four arguments.
-/
import proofs.«128864_j32693291057854_2_alg».proof.Proof.Gen.ReferenceIdeal.Read
import proofs.«128864_j32693291057854_2_alg».proof.Proof.Spec

noncomputable section

namespace Cert.Fuzzy.Ref

open Cert.ReferenceIdeal Cert.ReferenceIdeal.Read Idealize.ShloMosaic Idealize.ShloMosaic.ValueIdx Cert.Fuzzy

variable (i : S131072.Idx) (r : Fin 64) (a : Fin 16)

/-! The arguments' indices under the two sums over rules (the numerator's and the denominator's). -/

theorem ex_z : lidx_main_v1 (idx_main_v23 i r) a = ix2 (i 0) a := ix2_ext _ _ _ rfl rfl
theorem erho_z : idx_main_v0 (ridx_main_v1 (idx_main_v23 i r) a) = ix2 r (col a) := ix2_ext _ _ _ rfl rfl
theorem ebias_z : idx_main_v2 (idx_main_v3 (idx_main_v4 (idx_main_v5 (idx_main_v23 i r)))) = ix2 r biasCol :=
  ix2_ext _ _ _ (Nat.div_one _) rfl
theorem ex_n : idx_main_v7 (idx_main_v9 (idx_main_v19 (idx_main_v23 i r) a)) = ix2 (i 0) a := ix2_ext _ _ _ rfl rfl
theorem emu_n : idx_main_v8 (idx_main_v10 (idx_main_v19 (idx_main_v23 i r) a)) = ix2 r a := ix2_ext _ _ _ rfl rfl
theorem esg_n : idx_main_v13 (idx_main_v17 (idx_main_v19 (idx_main_v23 i r) a)) = ix2 r a := ix2_ext _ _ _ rfl rfl
theorem ex_d : idx_main_v7 (idx_main_v9 (idx_main_v19 (idx_main_v24 i r) a)) = ix2 (i 0) a := ix2_ext _ _ _ rfl rfl
theorem emu_d : idx_main_v8 (idx_main_v10 (idx_main_v19 (idx_main_v24 i r) a)) = ix2 r a := ix2_ext _ _ _ rfl rfl
theorem esg_d : idx_main_v13 (idx_main_v17 (idx_main_v19 (idx_main_v24 i r) a)) = ix2 r a := ix2_ext _ _ _ rfl rfl

/-- The reference's result is G of its arguments. -/
theorem ref_eq (x0 : (⟨S131072x16, .f32⟩ : BufTy).Contents (Elt Ideal)) (x1 x2 : (⟨S64x16, .f32⟩ : BufTy).Contents (Elt Ideal))
    (x3 : (⟨S64x17, .f32⟩ : BufTy).Contents (Elt Ideal)) :
    val_main_v27 (F := Ideal) x0 x1 x2 x3 = G x0 x1 x2 x3 := by
  funext i
  simp only [val_main_v27_apply, val_main_v23_apply, val_main_v22_apply, val_main_v6_apply, val_main_v1_apply,
    val_main_v0_apply, val_main_v5_apply, val_main_v4_apply, val_main_v3_apply, val_main_v2_apply, val_main_v21_apply,
    val_main_v20_apply, val_main_v19_apply, val_main_v18_apply, val_main_v12_apply, val_main_v11_apply, val_main_v9_apply,
    val_main_v7_apply, val_main_v10_apply, val_main_v8_apply, val_main_v17_apply, val_main_v16_apply, val_main_v15_apply,
    val_main_cst_apply, val_main_v14_apply, val_main_v13_apply, val_main_cst_0_apply, val_main_cst_1_apply,
    val_main_v26_apply, val_main_v24_apply, val_main_v25_apply, val_main_cst_2_apply, val_main_cst_3_apply]
  simp only [Ideal.addf_def, Ideal.mulf_def, Ideal.subf_def, Ideal.hostDivf_def, Ideal.hostNegf_def, Ideal.negf_def,
    Ideal.hostUnary_exp_def, Ideal.ofBits_def, Ideal.ofBits_zero_f32, zero_add,
    ex_z, erho_z, ebias_z, ex_n, emu_n, esg_n, ex_d, emu_d, esg_d]
  rfl

end Cert.Fuzzy.Ref

end
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal

noncomputable section

namespace Cert.Finite

open Idealize.ShloMosaic

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem real_of_abs_lt_inf (x : Ideal .f32)
    (h : FloatOps.cmpf (F := Ideal) .olt (FloatOps.hostAbsf (F := Ideal) x)
        (FloatOps.ofBits (F := Ideal) .f32 0x7F800000#32) = 1#1) : ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  obtain ⟨ht, hb⟩ := (abs_lt_top_iff x).mp hlt
  exact exists_real_of_ne ht hb

/-- One array: if the reduction by "and" over all axes (into a result with one index) of the bits
    |x i| < inf i is 1, where every inf i is the pattern of +∞, then every entry of x is real. -/
theorem real_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : ∃ r : ℝ, (x i : EReal) = (r : EReal) := by
  have hi := Host.reduce_andi_all _ init h hu j e i
  refine real_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.PreFacts.lean ====
/-
  The precondition "all inputs finite, all scales nonzero", read back at the ideal float values
  (every float an extended real).

  The printed test is a conjunction of five bits, each a reduction by "and" over a whole array
  into a result with a single index:
    * for each of the four input arrays a, the bits |a i| < +∞, where +∞ is the value of the
      IEEE pattern 0x7F800000 broadcast to the array's shape;
    * for the array of scales s, the bits s i ≠ 0, where 0 is the value of the pattern 0x00000000
      broadcast to the shape, and the comparison is "unordered or not equal" — which at the
      extended reals, where every two values are ordered, is plain inequality.
  If the conjunction is 1 then every entry of the four arrays is a real number and no scale is 0.
-/
import proofs.«128864_j32693291057854_2_alg».proof.Pre_finite_inputs
import proofs.«128864_j32693291057854_2_alg».proof.Proof.LibFinite
import Idealize.ShloMosaic.Lib.ReduceAll
import Idealize.ShloMosaic.PureOps.Ideal

noncomputable section

namespace Cert.PreFacts

open Idealize.ShloMosaic

/-- The IEEE single-precision pattern 0x00000000 denotes 0. -/
theorem ofBits_zero : Ideal.ofBits .f32 0x00000000#32 = (0 : EReal) := by
  simp [Ideal.ofBits, Ideal.ieee]

/-- One element: if the comparison bit of "x is unordered with or different from 0" is 1, then
    x ≠ 0. Here 0 is given by its bit pattern. -/
theorem ne_zero_of_une (x : Ideal .f32)
    (h : FloatOps.cmpf (F := Ideal) .une x (FloatOps.ofBits (F := Ideal) .f32 0x00000000#32) = 1#1) :
    (x : EReal) ≠ 0 := by
  have h' : Ideal.cmp .une (x : EReal) (Ideal.ofBits .f32 0x00000000#32) = 1#1 := h
  rw [ofBits_zero] at h'
  intro hx
  simp [Ideal.cmp, hx] at h'

/-- One array: if the reduction by "and" over all axes (into a result with one index) of the bits
    "x i is unordered with or different from z i" is 1, where every z i is the pattern of 0, then
    no entry of x is 0. -/
theorem ne_zero_of_all {s t u : Shape} {axes : List (Fin s.rank)} [Subsingleton t.Idx]
    (x z : FVec Ideal s .f32) (hz : ∀ i, z i = FloatOps.ofBits (F := Ideal) .f32 0x00000000#32)
    (init : IVec u 1) (h : s.ReducesTo axes t) (hu : 0 < u.numel) (j : t.Idx)
    (e : Host.reduce IntOp.andi (cmpf (F := Ideal) .une x z) init h hu j = 1#1)
    (i : s.Idx) : (x i : EReal) ≠ 0 := by
  have hi := Host.reduce_andi_all _ init h hu j e i
  refine ne_zero_of_une (x i) ?_
  rw [← hz i]
  exact hi

/-- The precondition decoded: the four input arrays have only real entries, and the array of
    scales has no zero entry. -/
theorem of_pre [Cert.Pre_finite_inputs.Facts]
    (x : FVec Ideal Cert.Pre_finite_inputs.S131072x16 .f32)
    (mu sg : FVec Ideal Cert.Pre_finite_inputs.S64x16 .f32)
    (rho : FVec Ideal Cert.Pre_finite_inputs.S64x17 .f32)
    (h : Cert.Pre_finite_inputs.fn (F := Ideal) x mu sg rho = fun _ => 1#1) :
    (∀ i, ∃ r : ℝ, (x i : EReal) = (r : EReal)) ∧ (∀ i, ∃ r : ℝ, (mu i : EReal) = (r : EReal)) ∧
    (∀ i, ∃ r : ℝ, (sg i : EReal) = (r : EReal)) ∧ (∀ i, ∃ r : ℝ, (rho i : EReal) = (r : EReal)) ∧
    (∀ i, (sg i : EReal) ≠ 0) := by
  -- the one index of the result (its shape has rank zero)
  have h0 : Cert.Pre_finite_inputs.fn (F := Ideal) x mu sg rho (fun a => a.elim0) = 1#1 :=
    congrFun h (fun a => a.elim0)
  unfold Cert.Pre_finite_inputs.fn at h0
  dsimp only at h0
  unfold Cert.Pre_finite_inputs.fn_part1 at h0
  dsimp only at h0
  -- the five tests, outermost conjunction first
  obtain ⟨h1234, h5⟩ := IntOp.andi_eq_one.1 (show IntOp.andi _ _ = 1#1 from h0)
  obtain ⟨h123, h4⟩ := IntOp.andi_eq_one.1 (show IntOp.andi _ _ = 1#1 from h1234)
  obtain ⟨h12, h3⟩ := IntOp.andi_eq_one.1 (show IntOp.andi _ _ = 1#1 from h123)
  obtain ⟨h1, h2⟩ := IntOp.andi_eq_one.1 (show IntOp.andi _ _ = 1#1 from h12)
  exact ⟨fun i => Cert.Finite.real_of_all x _ (fun _ => rfl) _ _ _ _ h1 i,
    fun i => Cert.Finite.real_of_all mu _ (fun _ => rfl) _ _ _ _ h2 i,
    fun i => Cert.Finite.real_of_all sg _ (fun _ => rfl) _ _ _ _ h3 i,
    fun i => Cert.Finite.real_of_all rho _ (fun _ => rfl) _ _ _ _ h4 i,
    fun i => ne_zero_of_all sg _ (fun _ => rfl) _ _ _ _ h5 i⟩

end Cert.PreFacts

end
-- ==== Proof.lean ====
/-
  The certificate of the fuzzy-rule layer: a Pallas kernel over 32 blocks of 4096 samples against its jnp reference.

  The layer maps a sample x_n (16 features) to  ( Σ_r z(n, r) · w(n, r) ) / ( Σ_r w(n, r) + ε )  over 64 rules, with
  z(n, r) = x_n · rho(r, 0:16) + rho(r, 16)  and  w(n, r) = exp ( -Σ_a (x(n, a) - mu(r, a))² / (2 · sigma(r, a)²) )
  (the function G of Proof/Spec.lean). The reference computes exactly that, operation by operation (Proof/RefIsG.lean).
  The kernel expands the square: the host folds -1/(2 sigma²), 2 mu/(2 sigma²) and rho into one [32, 192] matrix, the kernel
  multiplies the rows (x², x) by it, and subtracts Σ_a mu²/(2 sigma²) (Proof/Payload.lean: the stored value at a row;
  Proof/HostPrelude.lean: the matrix and the two rows; Proof/KernelValue.lean: the 32 blocks are one array function).
  For real x, mu, sigma with sigma ≠ 0 the expanded exponent is the reference's (Proof/LogwAlgebra.lean,
  Proof/Bridge.lean); the precondition gives exactly that (Proof/PreFacts.lean: every input finite, every sigma nonzero).
  At sigma = 0 the claim would be false: where x = mu the reference's exponent is -(0 / 0), the kernel's is not.

  The three frames: the two kernel programs' are the generated frame runs; the reference's is its generated run with the
  result dropped. The idealization rewrote nothing, so its conjunct is trivial.
-/
import proofs.«128864_j32693291057854_2_alg».proof.Defs
import proofs.«128864_j32693291057854_2_alg».proof.Proof.Gen.Kernel
import proofs.«128864_j32693291057854_2_alg».proof.Proof.Gen.Kernel.Skeleton
import proofs.«128864_j32693291057854_2_alg».proof.Proof.Gen.Kernel.Launch
import proofs.«128864_j32693291057854_2_alg».proof.Proof.Gen.Kernel.Points
import proofs.«128864_j32693291057854_2_alg».proof.Proof.Gen.Kernel.Frame
import proofs.«128864_j32693291057854_2_alg».proof.Proof.Gen.KernelIdeal
import proofs.«128864_j32693291057854_2_alg».proof.Proof.Gen.KernelIdeal.Skeleton
import proofs.«128864_j32693291057854_2_alg».proof.Proof.Gen.KernelIdeal.Launch
import proofs.«128864_j32693291057854_2_alg».proof.Proof.Gen.KernelIdeal.Points
import proofs.«128864_j32693291057854_2_alg».proof.Proof.Gen.KernelIdeal.Frame
import proofs.«128864_j32693291057854_2_alg».proof.Proof.Gen.ReferenceIdeal
import proofs.«128864_j32693291057854_2_alg».proof.Proof.Gen.KernelIdeal.Value
import proofs.«128864_j32693291057854_2_alg».proof.Proof.Gen.ReferenceIdeal.Run
import proofs.«128864_j32693291057854_2_alg».proof.Proof.Gen.ReferenceIdeal.Read
import proofs.«128864_j32693291057854_2_alg».proof.Proof.Gen.Pre_finite_inputs
import proofs.«128864_j32693291057854_2_alg».proof.Proof.KernelValue
import proofs.«128864_j32693291057854_2_alg».proof.Proof.Bridge
import proofs.«128864_j32693291057854_2_alg».proof.Proof.RefIsG
import proofs.«128864_j32693291057854_2_alg».proof.Proof.PreFacts
import Idealize.ShloMosaic.Adequacy
import Idealize.ShloMosaic.Init

noncomputable section

namespace Cert.Proof

open Idealize.ShloMosaic Idealize.ShloMosaic.TcCoe Idealize.SL.Sem Cert.Fuzzy

/-- The word-level kernel runs, faults nowhere and leaves its arguments: its generated frame run. -/
theorem frame_k : Cert.frame_Kernel := fun m ρ _ => Cert.Kernel.Gen.frame m ρ
/-- The same for the kernel read on the extended reals. -/
theorem frame_ki : Cert.frame_KernelIdeal := fun m ρ _ => Cert.KernelIdeal.Gen.frame m ρ
/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the layer function G of the arguments: the kernel by its run, the host
    prelude's arrays and the expansion of the square under the precondition; the reference by its run read back. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (KV.run m ρ)
    rw [Cert.KernelIdeal.Gen.V_main_arg0, Host.V_w, Host.V_m2, Host.V_rb]
    obtain ⟨hx, hmu, hsg, _, hne⟩ := Cert.PreFacts.of_pre _ _ _ _ (hpre c)
    funext i
    exact Bridge.payRow_eq_G _ _ _ _ hx hmu hsg hne i
  · refine (θ_run Cert.ReferenceIdeal.defs _ _).mono (fun _ h c => ⟨?_, (h c).2⟩)
      (Cert.ReferenceIdeal.Value.run (F := Ideal) m' ρ')
    rw [(h c).1, Cert.ReferenceIdeal.Read.val_main_v27_eq, Ref.ref_eq, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
